-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x128x62 : Shape := ⟨3, ![4096, 128, 62]⟩
abbrev S4096x128x5x6 : Shape := ⟨4, ![4096, 128, 5, 6]⟩
abbrev S4096x128x5 : Shape := ⟨3, ![4096, 128, 5]⟩
abbrev S68x128 : Shape := ⟨2, ![68, 128]⟩
abbrev S128 : Shape := ⟨1, ![128]⟩
abbrev S_ : Shape := ⟨0, ![]⟩

class Facts : Prop where
  bcast_S_S4096x128x62 : S_.BroadcastsInDim S4096x128x62 (![] : Fin 0 → Fin S4096x128x62.rank)
  reducesTo_S4096x128x62_S_d0_1_2 : S4096x128x62.ReducesTo [0, 1, 2] S_
  h_S_ : 0 < S_.numel
  bcast_S_S4096x128x5x6 : S_.BroadcastsInDim S4096x128x5x6 (![] : Fin 0 → Fin S4096x128x5x6.rank)
  reducesTo_S4096x128x5x6_S_d0_1_2_3 : S4096x128x5x6.ReducesTo [0, 1, 2, 3] S_
  bcast_S_S68x128 : S_.BroadcastsInDim S68x128 (![] : Fin 0 → Fin S68x128.rank)
  reducesTo_S68x128_S_d0_1 : S68x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S4096x128x62 .f32) (main_arg1 : FVec F S4096x128x5x6 .f32) (main_arg2 : IVec S4096x128x5 32) (main_arg3 : FVec F S68x128 .f32) (main_arg4 : FVec F S128 .f32) : IVec S_ 1 :=
  let main_v0 : FVec F S4096x128x62 .f32 := Host.absf main_arg0
  let main_cst : FVec F S_ .f32 := constant S_ .f32 0x7F800000#32
  let main_v1 : FVec F S4096x128x62 .f32 := broadcastInDim S4096x128x62 ![] bcast_S_S4096x128x62 main_cst
  let main_v2 : IVec S4096x128x62 1 := cmpf .olt main_v0 main_v1
  let main_c : IVec S_ 1 := constantI S_ 1 1#1
  let main_v3 : IVec S_ 1 := (fun x v => Host.reduce IntOp.andi x v reducesTo_S4096x128x62_S_d0_1_2 h_S_) main_v2 main_c
  let main_v4 : FVec F S4096x128x5x6 .f32 := Host.absf main_arg1
  let main_cst_0 : FVec F S_ .f32 := constant S_ .f32 0x7F800000#32
  let main_v5 : FVec F S4096x128x5x6 .f32 := broadcastInDim S4096x128x5x6 ![] bcast_S_S4096x128x5x6 main_cst_0
  let main_v6 : IVec S4096x128x5x6 1 := cmpf .olt main_v4 main_v5
  let main_c_1 : IVec S_ 1 := constantI S_ 1 1#1
  let main_v7 : IVec S_ 1 := (fun x v => Host.reduce IntOp.andi x v reducesTo_S4096x128x5x6_S_d0_1_2_3 h_S_) main_v6 main_c_1
  let main_v8 : IVec S_ 1 := andi main_v3 main_v7
  let main_v9 : FVec F S68x128 .f32 := Host.absf main_arg3
  let main_cst_2 : FVec F S_ .f32 := constant S_ .f32 0x7F800000#32
  let main_v10 : FVec F S68x128 .f32 := broadcastInDim S68x128 ![] bcast_S_S68x128 main_cst_2
  let main_v11 : IVec S68x128 1 := cmpf .olt main_v9 main_v10
  let main_c_3 : IVec S_ 1 := constantI S_ 1 1#1
  let main_v12 : IVec S_ 1 := (fun x v => Host.reduce IntOp.andi x v reducesTo_S68x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S4096x128x62 : Shape := ⟨3, ![4096, 128, 62]⟩
abbrev S4096x128x5x6 : Shape := ⟨4, ![4096, 128, 5, 6]⟩
abbrev S4096x128x5 : Shape := ⟨3, ![4096, 128, 5]⟩
abbrev S68x128 : Shape := ⟨2, ![68, 128]⟩
abbrev S128 : Shape := ⟨1, ![128]⟩
abbrev S4096x128x30 : Shape := ⟨3, ![4096, 128, 30]⟩
abbrev S_ : Shape := ⟨0, ![]⟩
abbrev S4096x128 : Shape := ⟨2, ![4096, 128]⟩
abbrev S62x128 : Shape := ⟨2, ![62, 128]⟩
abbrev S6x128 : Shape := ⟨2, ![6, 128]⟩
abbrev S1x128 : Shape := ⟨2, ![1, 128]⟩
abbrev S64x128x62 : Shape := ⟨3, ![64, 128, 62]⟩
abbrev S64x128x30 : Shape := ⟨3, ![64, 128, 30]⟩
abbrev S64x128 : Shape := ⟨2, ![64, 128]⟩
abbrev S64x62 : Shape := ⟨2, ![64, 62]⟩
abbrev S64x6 : Shape := ⟨2, ![64, 6]⟩
abbrev S64x1 : Shape := ⟨2, ![64, 1]⟩
abbrev S64x32x62 : Shape := ⟨3, ![64, 32, 62]⟩
abbrev S64x32x30 : Shape := ⟨3, ![64, 32, 30]⟩
abbrev S64x32 : Shape := ⟨2, ![64, 32]⟩
abbrev S64x32x1 : Shape := ⟨3, ![64, 32, 1]⟩
abbrev S64x32x6 : Shape := ⟨3, ![64, 32, 6]⟩
abbrev S64 : Shape := ⟨1, ![64]⟩

abbrev nBuf : Space → Nat
  | .hbm => 16
  | .vmem => 11
  | .smem => 0
  | _ => 0

abbrev bufTy : (tb : Table) → Fin (tcTables nBuf tb) → BufTy
  | .hbm, ⟨0, _⟩ => ⟨S4096x128x62, .f32⟩
  | .hbm, ⟨1, _⟩ => ⟨S4096x128x5x6, .f32⟩
  | .hbm, ⟨2, _⟩ => ⟨S4096x128x5, .i32⟩
  | .hbm, ⟨3, _⟩ => ⟨S68x128, .f32⟩
  | .hbm, ⟨4, _⟩ => ⟨S128, .f32⟩
  | .hbm, ⟨5, _⟩ => ⟨S4096x128x30, .f32⟩
  | .hbm, ⟨6, _⟩ => ⟨S_, .i32⟩
  | .hbm, ⟨7, _⟩ => ⟨S4096x128x5, .i32⟩
  | .hbm, ⟨8, _⟩ => ⟨S4096x128x5, .i1⟩
  | .hbm, ⟨9, _⟩ => ⟨S_, .i1⟩
  | .hbm, ⟨10, _⟩ => ⟨S4096x128, .i1⟩
  | .hbm, ⟨11, _⟩ => ⟨S4096x128, .f32⟩
  | .hbm, ⟨12, _⟩ => ⟨S62x128, .f32⟩
  | .hbm, ⟨13, _⟩ => ⟨S6x128, .f32⟩
  | .hbm, ⟨14, _⟩ => ⟨S1x128, .f32⟩
  | .hbm, ⟨15, _⟩ => ⟨S4096x128, .f32⟩
  | .local _ .vmem, ⟨0, _⟩ => ⟨S64x128x62, .f32⟩
  | .local _ .vmem, ⟨1, _⟩ => ⟨S64x128x62, .f32⟩
  | .local _ .vmem, ⟨2, _⟩ => ⟨S64x128x30, .f32⟩
  | .local _ .vmem, ⟨3, _⟩ => ⟨S64x128x30, .f32⟩
  | .local _ .vmem, ⟨4, _⟩ => ⟨S64x128, .f32⟩
  | .local _ .vmem, ⟨5, _⟩ => ⟨S64x128, .f32⟩
  | .local _ .vmem, ⟨6, _⟩ => ⟨S62x128, .f32⟩
  | .local _ .vmem, ⟨7, _⟩ => ⟨S6x128, .f32⟩
  | .local _ .vmem, ⟨8, _⟩ => ⟨S1x128, .f32⟩
  | .local _ .vmem, ⟨9, _⟩ => ⟨S64x128, .f32⟩
  | .local _ .vmem, ⟨10, _⟩ => ⟨S64x128, .f32⟩
  | _, _ => ⟨S4096x128x62, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x128x62 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x128x30 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S62x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S6x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S64x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S4096x128x5x6_S4096x128x30 : S4096x128x5x6.ShapeCasts S4096x128x30
  bcast_S_S4096x128x5 : S_.BroadcastsInDim S4096x128x5 (![] : Fin 0 → Fin S4096x128x5.rank)
  reducesTo_S4096x128x5_S4096x128_d2 : S4096x128x5.ReducesTo [2] S4096x128
  h_S_ : 0 < S_.numel
  slices_S68x128_S62x128_0_0 : S68x128.Slices ![0, 0] S62x128
  slices_S68x128_S6x128_62_0 : S68x128.Slices ![62, 0] S6x128
  shapeCasts_S128_S1x128 : S128.ShapeCasts S1x128
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S64x128x62_S64x32x62_0_0_0 : ∀ a, (![0, 0, 0] : Fin 3 → Nat) a + S64x32x62.size a ≤ S64x128x62.size a
  h_S64x32x62 : 0 < S64x32x62.numel
  inb_S64x128x30_S64x32x30_0_0_0 : ∀ a, (![0, 0, 0] : Fin 3 → Nat) a + S64x32x30.size a ≤ S64x128x30.size a
  h_S64x32x30 : 0 < S64x32x30.numel
  shapeCasts_S64x32x30_S64x32x30 : S64x32x30.ShapeCasts S64x32x30
  slices_S64x128_o0_0_S64x32 : S64x128.Slices ![0, 0] S64x32
  shapeCasts_S64x32_S64x32x1 : S64x32.ShapeCasts S64x32x1
  slices_S64x32x30_o0_0_0_S64x32x6 : S64x32x30.Slices ![0, 0, 0] S64x32x6
  slices_S64x32x30_o0_0_6_S64x32x6 : S64x32x30.Slices ![0, 0, 6] S64x32x6
  slices_S64x32x30_o0_0_12_S64x32x6 : S64x32x30.Slices ![0, 0, 12] S64x32x6
  slices_S64x32x30_o0_0_18_S64x32x6 : S64x32x30.Slices ![0, 0, 18] S64x32x6
  slices_S64x32x30_o0_0_24_S64x32x6 : S64x32x30.Slices ![0, 0, 24] S64x32x6
  broadcasts_S64x32x1_S64x32x62 : S64x32x1.Broadcasts S64x32x62
  reduces_S64x32x62_S64x62 : S64x32x62.Reduces [1] S64x62
  broadcasts_S64x32x1_S64x32x6 : S64x32x1.Broadcasts S64x32x6
  reduces_S64x32x6_S64x6 : S64x32x6.Reduces [1] S64x6
  reduces_S64x32_S64 : S64x32.Reduces [1] S64
  shapeCasts_S64_S64x1 : S64.ShapeCasts S64x1
  inb_S64x128x62_S64x32x62_0_32_0 : ∀ a, (![0, 32, 0] : Fin 3 → Nat) a + S64x32x62.size a ≤ S64x128x62.size a
  inb_S64x128x30_S64x32x30_0_32_0 : ∀ a, (![0, 32, 0] : Fin 3 → Nat) a + S64x32x30.size a ≤ S64x128x30.size a
  slices_S64x128_o0_32_S64x32 : S64x128.Slices ![0, 32] S64x32
  inb_S64x128x62_S64x32x62_0_64_0 : ∀ a, (![0, 64, 0] : Fin 3 → Nat) a + S64x32x62.size a ≤ S64x128x62.size a
  inb_S64x128x30_S64x32x30_0_64_0 : ∀ a, (![0, 64, 0] : Fin 3 → Nat) a + S64x32x30.size a ≤ S64x128x30.size a
  slices_S64x128_o0_64_S64x32 : S64x128.Slices ![0, 64] S64x32
  inb_S64x128x62_S64x32x62_0_96_0 : ∀ a, (![0, 96, 0] : Fin 3 → Nat) a + S64x32x62.size a ≤ S64x128x62.size a
  inb_S64x128x30_S64x32x30_0_96_0 : ∀ a, (![0, 96, 0] : Fin 3 → Nat) a + S64x32x30.size a ≤ S64x128x30.size a
  slices_S64x128_o0_96_S64x32 : S64x128.Slices ![0, 96] S64x32
  inb_S62x128_S62x128_0_0 : ∀ a, (![0, 0] : Fin 2 → Nat) a + S62x128.size a ≤ S62x128.size a
  h_S62x128 : 0 < S62x128.numel
  shapeCasts_S62x128_S62x128 : S62x128.ShapeCasts S62x128
  bitsLt_bf16_f32 : FTy.bits .bf16 < FTy.bits .f32
  inb_S6x128_S6x128_0_0 : ∀ a, (![0, 0] : Fin 2 → Nat) a + S6x128.size a ≤ S6x128.size a
  h_S6x128 : 0 < S6x128.numel
  shapeCasts_S6x128_S6x128 : S6x128.ShapeCasts S6x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S64x128 : S1x128.Broadcasts S64x128
  broadcasts_S64x1_S64x128 : S64x1.Broadcasts S64x128
  dot_S64x62_S62x128_S64x128_1_0_0_1_n_n_wf : DotDims.WF S64x62 S62x128 S64x128 [1] [0] [0] [1] [] []
  dot_S64x6_S6x128_S64x128_1_0_0_1_n_n_wf : DotDims.WF S64x6 S6x128 S64x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x128x62.size a ≤ S4096x128x62.size a
  hwx0_0 : ∀ i : grid0.Coords, EltTy.bits .f32 = 32 ∨ (Rect.block (s := S4096x128x62) S64x128x62.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x128x30.size a ≤ S4096x128x30.size a
  hwx0_1 : ∀ i : grid0.Coords, EltTy.bits .f32 = 32 ∨ (Rect.block (s := S4096x128x30) S64x128x30.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S4096x128.size a
  hwx0_2 : ∀ i : grid0.Coords, EltTy.bits .f32 = 32 ∨ (Rect.block (s := S4096x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S62x128.size a ≤ S62x128.size a
  hwx0_3 : ∀ i : grid0.Coords, EltTy.bits .f32 = 32 ∨ (Rect.block (s := S62x128) S62x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S6x128.size a ≤ S6x128.size a
  hwx0_4 : ∀ i : grid0.Coords, EltTy.bits .f32 = 32 ∨ (Rect.block (s := S6x128) S6x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S64x128.size a ≤ S4096x128.size a
  hwx0_6 : ∀ i : grid0.Coords, EltTy.bits .f32 = 32 ∨ (Rect.block (s := S4096x128) S64x128.size (cc0_transform_6 i) (hinb0_6 i)).WholeWords (EltTy.packing .f32)

variable [Facts₀]

def dot_S64x62_S62x128_S64x128_1_0_0_1_n_n : DotDims S64x62 S62x128 S64x128 where
  lhsContracting := [1]
  rhsContracting := [0]
  lhsNonContracting := [0]
  rhsNonContracting := [1]
  lhsBatch := []
  rhsBatch := []
  wf := dot_S64x62_S62x128_S64x128_1_0_0_1_n_n_wf
def dot_S64x6_S6x128_S64x128_1_0_0_1_n_n : DotDims S64x6 S6x128 S64x128 where
  lhsContracting := [1]
  rhsContracting := [0]
  lhsNonContracting := [0]
  rhsNonContracting := [1]
  lhsBatch := []
  rhsBatch := []
  wf := dot_S64x6_S6x128_S64x128_1_0_0_1_n_n_wf

abbrev win0_0 : Pipeline.Window sig grid0 :=
  Pipeline.Window.ofSpec (Memref.whole main_arg0) S64x128x62.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S64x128x30.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S64x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S62x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S6x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S64x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S4096x128x62 : Shape := ⟨3, ![4096, 128, 62]⟩
abbrev S4096x128x5x6 : Shape := ⟨4, ![4096, 128, 5, 6]⟩
abbrev S4096x128x5 : Shape := ⟨3, ![4096, 128, 5]⟩
abbrev S68x128 : Shape := ⟨2, ![68, 128]⟩
abbrev S128 : Shape := ⟨1, ![128]⟩
abbrev S_ : Shape := ⟨0, ![]⟩
abbrev S4096x128 : Shape := ⟨2, ![4096, 128]⟩
abbrev S4096x128x1 : Shape := ⟨3, ![4096, 128, 1]⟩
abbrev S4096x128x6 : Shape := ⟨3, ![4096, 128, 6]⟩
abbrev S4096x128x68 : Shape := ⟨3, ![4096, 128, 68]⟩
abbrev S4096x128x128 : Shape := ⟨3, ![4096, 128, 128]⟩
abbrev S1x1x128 : Shape := ⟨3, ![1, 1, 128]⟩

abbrev nBuf : Space → Nat
  | .hbm => 27
  | .vmem => 0
  | .smem => 0
  | _ => 0

abbrev bufTy : (tb : Table) → Fin (tcTables nBuf tb) → BufTy
  | .hbm, ⟨0, _⟩ => ⟨S4096x128x62, .f32⟩
  | .hbm, ⟨1, _⟩ => ⟨S4096x128x5x6, .f32⟩
  | .hbm, ⟨2, _⟩ => ⟨S4096x128x5, .i32⟩
  | .hbm, ⟨3, _⟩ => ⟨S68x128, .f32⟩
  | .hbm, ⟨4, _⟩ => ⟨S128, .f32⟩
  | .hbm, ⟨5, _⟩ => ⟨S_, .i32⟩
  | .hbm, ⟨6, _⟩ => ⟨S4096x128x5, .i32⟩
  | .hbm, ⟨7, _⟩ => ⟨S4096x128x5, .i1⟩
  | .hbm, ⟨8, _⟩ => ⟨S4096x128x5, .i32⟩
  | .hbm, ⟨9, _⟩ => ⟨S_, .i32⟩
  | .hbm, ⟨10, _⟩ => ⟨S4096x128, .i32⟩
  | .hbm, ⟨11, _⟩ => ⟨S4096x128x1, .i32⟩
  | .hbm, ⟨12, _⟩ => ⟨S_, .i32⟩
  | .hbm, ⟨13, _⟩ => ⟨S4096x128x1, .i32⟩
  | .hbm, ⟨14, _⟩ => ⟨S4096x128x1, .i1⟩
  | .hbm, ⟨15, _⟩ => ⟨S4096x128x1, .f32⟩
  | .hbm, ⟨16, _⟩ => ⟨S_, .f32⟩
  | .hbm, ⟨17, _⟩ => ⟨S4096x128x6, .f32⟩
  | .hbm, ⟨18, _⟩ => ⟨S4096x128x68, .f32⟩
  | .hbm, ⟨19, _⟩ => ⟨S4096x128x128, .f32⟩
  | .hbm, ⟨20, _⟩ => ⟨S1x1x128, .f32⟩
  | .hbm, ⟨21, _⟩ => ⟨S4096x128x128, .f32⟩
  | .hbm, ⟨22, _⟩ => ⟨S4096x128x128, .f32⟩
  | .hbm, ⟨23, _⟩ => ⟨S4096x128x128, .f32⟩
  | .hbm, ⟨24, _⟩ => ⟨S4096x128x128, .f32⟩
  | .hbm, ⟨25, _⟩ => ⟨S_, .f32⟩
  | .hbm, ⟨26, _⟩ => ⟨S4096x128, .f32⟩
  | _, _ => ⟨S4096x128x62, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_c_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩

abbrev nD : Nat := 1
abbrev τ : Topo := Topo.v7x

variable {F : FTy → Type} [FloatOps F]

class Facts₀ : Prop where
  bcast_S_S4096x128x5 : S_.BroadcastsInDim S4096x128x5 (![] : Fin 0 → Fin S4096x128x5.rank)
  natLt_1_32 : 1 < 32
  reducesTo_S4096x128x5_S4096x128_d2 : S4096x128x5.ReducesTo [2] S4096x128
  h_S_ : 0 < S_.numel
  bcast_S4096x128_S4096x128x1_0_1 : S4096x128.BroadcastsInDim S4096x128x1 (![0, 1] : Fin 2 → Fin S4096x128x1.rank)
  bcast_S_S4096x128x1 : S_.BroadcastsInDim S4096x128x1 (![] : Fin 0 → Fin S4096x128x1.rank)
  reducesTo_S4096x128x5x6_S4096x128x6_d2 : S4096x128x5x6.ReducesTo [2] S4096x128x6
  concatenates_S4096x128x62_S4096x128x6_S4096x128x68_d2 : Shape.Concatenates [S4096x128x62, S4096x128x6] S4096x128x68 2
  bcast_S128_S1x1x128_2 : S128.BroadcastsInDim S1x1x128 (![2] : Fin 1 → Fin S1x1x128.rank)
  bcast_S1x1x128_S4096x128x128_0_1_2 : S1x1x128.BroadcastsInDim S4096x128x128 (![0, 1, 2] : Fin 3 → Fin S4096x128x128.rank)
  bcast_S4096x128x1_S4096x128x128_0_1_2 : S4096x128x1.BroadcastsInDim S4096x128x128 (![0, 1, 2] : Fin 3 → Fin S4096x128x128.rank)
  reducesTo_S4096x128x128_S4096x128_d1 : S4096x128x128.ReducesTo [1] S4096x128
  dot_S4096x128x68_S68x128_S4096x128x128_2_0_01_1_n_n_wf : DotDims.WF S4096x128x68 S68x128 S4096x128x128 [2] [0] [0, 1] [1] [] []

variable [Facts₀]

def dot_S4096x128x68_S68x128_S4096x128x128_2_0_01_1_n_n : DotDims S4096x128x68 S68x128 S4096x128x128 where
  lhsContracting := [2]
  rhsContracting := [0]
  lhsNonContracting := [0, 1]
  rhsNonContracting := [1]
  lhsBatch := []
  rhsBatch := []
  wf := dot_S4096x128x68_S68x128_S4096x128x128_2_0_01_1_n_n_wf

class Facts : Prop extends Facts₀ where

variable [Facts]
-- ==== Proof.LibColumnForms.lean ====
/-
  Four index forms of vector operations on the extended reals, at explicit coordinates and for any extents: the sum
  along the rows of a matrix started from zero, the cast of a vector to a one-column matrix, the broadcast of a
  one-column matrix along the rows, and the square root read at an index.
-/
import Idealize.ShloMosaic.Lib.ValueIdx
import Idealize.ShloMosaic.Lib.Pipeline.Value
import Idealize.ShloMosaic.PureOps.Ideal.Laws

noncomputable section

open scoped BigOperators

namespace Cert.Lib.ColumnForms

open Idealize.ShloMosaic Idealize.ShloMosaic.ValueIdx

variable {α : Type}

/-- The sum along the rows of an a×b array, started from the zero word, read at row r: the sum over the b columns
    of the entries of that row. -/
theorem rowSum_apply {a b : Nat} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (r : Fin a) :
    multiReduction (F := Ideal) .add [1] ⟨1, ![a]⟩ src 0x00000000#32 h hφ hacc (ix1 r) = ∑ k : Fin b, src (ix2 r k) := by
  refine (Ideal.multiReduction_add_single src _ h hφ hacc (ix1 r)).trans ?_
  refine Finset.sum_congr rfl fun k _ => congrArg src ?_
  funext ax; apply Fin.ext
  match ax with
  | ⟨0, _⟩ => rfl
  | ⟨1, _⟩ => rfl

/-- An [a] array cast to a column [a, 1] reads, at (r, z), the operand at r, whatever the unit coordinate z. -/
theorem shapeCast_a_a1_apply {a : Nat} (x : (⟨1, ![a]⟩ : Shape).Idx → α) (h : (⟨1, ![a]⟩ : Shape).ShapeCasts ⟨2, ![a, 1]⟩)
    (r : Fin a) (z : Fin 1) : shapeCast ⟨2, ![a, 1]⟩ x h (ix2 r z) = x (ix1 r) :=
  shapeCast_apply x h _ _ (by
    have hz : z.val = 0 := by omega
    rw [Shape.rowMajor_val_two, Shape.rowMajor_val_one]
    show r.val = r.val * 1 + z.val
    rw [hz, Nat.mul_one, Nat.add_zero])

/-- A column [a, 1] broadcast to [a, b] reads, at (p, c), the column's entry of row p. -/
theorem broadcastTo_a1_ab_apply {a b : Nat} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The square root of a vector reads, at an index, the square root of the entry. -/
theorem sqrt_apply {s : Shape} {φ : FTy} (a : FVec Ideal s φ) (i : s.Idx) : sqrt a i = Ideal.sqrt (a i) := rfl

end Cert.Lib.ColumnForms

end
-- ==== Proof.LibLayout3.lean ====
/-
  Three layout and reduction readings at an index, for any extents.

  * The sum over the MIDDLE axis of an `[a, b, c]` array, started from the zero word, read at `(r, d)`: the sum
    over `i : Fin b` of the entries `(r, i, d)`.
  * An `[a, b, c]` array cast to `[a, n]` with `n = b · c` reads, at `(r, k)` with `k = i · c + d`, the
    operand at `(r, i, d)`: the two trailing axes flattened row-major.
  * Two arrays `[a, n₁]` and `[a, n₂]` concatenated along axis 1 read, at `(r, k)`, the first at `(r, k)`
    when `k < n₁` and the second at `(r, k − n₁)` otherwise.
-/
import Idealize.ShloMosaic.Lib.ValueIdx
import Idealize.ShloMosaic.Lib.Pipeline.Value
import Idealize.ShloMosaic.PureOps.Ideal.Laws

noncomputable section

open scoped BigOperators

namespace Cert.LibLayout3

open Idealize.ShloMosaic Idealize.ShloMosaic.ValueIdx

variable {α : Type}

/-- The sum along the middle axis, read at `(r, d)`. -/
theorem midSum_apply {a b c : Nat} (src : FVec Ideal ⟨3, ![a, b, c]⟩ .f32)
    (h : (⟨3, ![a, b, c]⟩ : Shape).Reduces [1] ⟨2, ![a, c]⟩) (hφ : FKind.Formats .f32)
    (hacc : (0x00000000#32 : BitVec 32) = FKind.add.neutral .f32 hφ) (r : Fin a) (d : Fin c) :
    multiReduction (F := Ideal) .add [1] ⟨2, ![a, c]⟩ src 0x00000000#32 h hφ hacc (ix2 r d)
      = ∑ i : Fin b, src (ix3 r i d) := by
  refine (Ideal.multiReduction_add_single src _ h hφ hacc (ix2 r d)).trans ?_
  refine Finset.sum_congr rfl fun k _ => congrArg src ?_
  funext ax; apply Fin.ext
  match ax with
  | ⟨0, _⟩ => rfl
  | ⟨1, _⟩ => rfl
  | ⟨2, _⟩ => rfl

/-- The two trailing axes flattened. -/
theorem shapeCast_abc_an_apply {a b c n : Nat} (x : (⟨3, ![a, b, c]⟩ : Shape).Idx → α)
    (h : (⟨3, ![a, b, c]⟩ : Shape).ShapeCasts ⟨2, ![a, n]⟩) (hn : n = b * c) (r : Fin a) (k : Fin n) (i : Fin b)
    (d : Fin c) (hk : k.val = i.val * c + d.val) :
    shapeCast ⟨2, ![a, n]⟩ x h (ix2 r k) = x (ix3 r i d) :=
  shapeCast_apply x h _ _ (by
    rw [Shape.rowMajor_val_three, Shape.rowMajor_val_two]
    show (r.val * b + i.val) * c + d.val = r.val * n + k.val
    rw [hk, hn]; ring)

/-- A concatenation along axis 1, read in its first piece. -/
theorem concat_axis1_left {a n₁ n₂ n : Nat} (x₁ : (⟨2, ![a, n₁]⟩ : Shape).Idx → α) (x₂ : (⟨2, ![a, n₂]⟩ : Shape).Idx → α)
    (h : Shape.Concatenates [⟨2, ![a, n₁]⟩, ⟨2, ![a, n₂]⟩] ⟨2, ![a, n]⟩ 1) (r : Fin a) (k : Fin n) (hk : k.val < n₁) :
    concatenate ⟨2, ![a, n]⟩ 1 [⟨⟨2, ![a, n₁]⟩, x₁⟩, ⟨⟨2, ![a, n₂]⟩, x₂⟩] h (ix2 r k) = x₁ (ix2 r ⟨k.val, hk⟩) :=
  concatenate_pair_apply_left 1 x₁ x₂ h (ix2 r k) rfl (ix2 r ⟨k.val, hk⟩) (fun b => by
    match b with
    | ⟨0, _⟩ => rfl
    | ⟨1, _⟩ => rfl)

/-- A concatenation along axis 1, read in its second piece. -/
theorem concat_axis1_right {a n₁ n₂ n : Nat} (x₁ : (⟨2, ![a, n₁]⟩ : Shape).Idx → α) (x₂ : (⟨2, ![a, n₂]⟩ : Shape).Idx → α)
    (h : Shape.Concatenates [⟨2, ![a, n₁]⟩, ⟨2, ![a, n₂]⟩] ⟨2, ![a, n]⟩ 1) (r : Fin a) (k : Fin n) (hk : n₁ ≤ k.val)
    (hk2 : k.val - n₁ < n₂) :
    concatenate ⟨2, ![a, n]⟩ 1 [⟨⟨2, ![a, n₁]⟩, x₁⟩, ⟨⟨2, ![a, n₂]⟩, x₂⟩] h (ix2 r k) = x₂ (ix2 r ⟨k.val - n₁, hk2⟩) :=
  concatenate_pair_apply_right 1 x₁ x₂ h (ix2 r k) rfl rfl (ix2 r ⟨k.val - n₁, hk2⟩)
    (fun b hb => by
      match b with
      | ⟨0, _⟩ => rfl
      | ⟨1, _⟩ => exact absurd rfl hb)
    (by show (k.val - n₁) + n₁ = k.val; omega)

end Cert.LibLayout3

end
-- ==== Proof.LibScaledTiles.lean ====
/-
  Two facts about finite sums on the extended reals, for a contraction axis cut into equal tiles.

  * A sum over an axis of n·K positions is the sum over the n tiles of the sums inside each tile, position
    K·s + q of the axis being position q of tile s.
  * For real numbers a, b and a real scale σ, read as extended reals, multiplying the total of the tiles'
    sums of products a·b by σ gives the sum of the products a·(b·σ): on the reals this is distributivity, and a
    finite sum or product of reals read as extended reals is the extended real of the real sum or product.
    (On the extended reals alone the law fails: with an infinite total and σ = 0 the two sides differ.)
-/
import Idealize.ShloMosaic.PureOps.Ideal.Laws

noncomputable section

open scoped BigOperators

namespace Cert.Lib.ScaledTiles

/-- A finite sum of reals, read as an extended real, is the sum of the terms read as extended reals. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Position q of tile s, on an axis of n·K positions. -/
def tilePos {n K : Nat} (s : Fin n) (q : Fin K) : Fin (n * K) :=
  ⟨K * s.val + q.val, by
    have hs := s.isLt; have hq := q.isLt
    calc K * s.val + q.val < K * s.val + K := by omega
      _ = K * (s.val + 1) := by ring
      _ ≤ K * n := Nat.mul_le_mul_left K hs
      _ = n * K := Nat.mul_comm K n⟩

theorem tilePos_val {n K : Nat} (s : Fin n) (q : Fin K) : (tilePos s q).val = K * s.val + q.val := rfl

/-- A sum over n·K positions, tile by tile. -/
theorem sum_tiles {β : Type*} [AddCommMonoid β] {n K : Nat} (f : Fin (n * K) → β) :
    ∑ k : Fin (n * K), f k = ∑ s : Fin n, ∑ q : Fin K, f (tilePos s q) := by
  rw [← Equiv.sum_comp finProdFinEquiv f, Fintype.sum_prod_type]
  refine Finset.sum_congr rfl fun s _ => Finset.sum_congr rfl fun q _ => ?_
  congr 1
  apply Fin.ext
  show q.val + K * s.val = K * s.val + q.val
  omega

/-- The total over tiles of the sums of products a·b, started from zero and then multiplied by σ, is the sum of the
    products a·(b·σ), for real a, b, σ read as extended reals. -/
theorem scaled_total_eq {κ ι : Type*} [Fintype κ] [Fintype ι] (a b : κ → ι → ℝ) (σ : ℝ) :
    (0 + ∑ s : κ, ∑ q : ι, ((a s q : ℝ) : EReal) * ((b s q : ℝ) : EReal)) * (σ : EReal)
      = ∑ s : κ, ∑ q : ι, ((a s q : ℝ) : EReal) * (((b s q : ℝ) : EReal) * (σ : EReal)) := by
  simp only [← EReal.coe_mul, ← coe_sum, zero_add]
  congr 1
  rw [Finset.sum_mul]
  refine Finset.sum_congr rfl fun s _ => ?_
  rw [Finset.sum_mul]
  refine Finset.sum_congr rfl fun q _ => ?_
  ring

end Cert.Lib.ScaledTiles

end
-- ==== Proof.PoolLaw.lean ====
/-
  Pooling before projecting: the law that joins the two programs.

  One sample has 128 atoms with 62 atom features each, five neighbour slots of 6 bond features, and a 0/1 mask per
  atom.  The reference projects every atom (the 62 atom features followed by the 6 summed bond features, against
  a 68-row weight matrix), adds the bias, masks, and sums over the atoms.  The kernel first sums the masked atom
  features and the masked summed bond features over the atoms, in four chunks of 32 atoms, projects the two pooled
  rows separately against the first 62 and the last 6 rows of the weights, and adds the bias times the number of
  unmasked atoms.  For real data the two are equal: the sum over the 68 features splits after the 62nd, products
  distribute over the finite sums and the two orders of summation are exchanged.  On the extended reals alone the
  step fails (a product does not distribute over a sum of opposite infinities), so the data are real numbers read
  as extended reals.
-/
import Idealize.ShloMosaic.PureOps.Ideal.Laws
import proofs.«139823_j13434657702340_2_alg».proof.Proof.LibScaledTiles

noncomputable section

open scoped BigOperators

namespace Cert.Pool

open Cert.Lib.ScaledTiles (coe_sum sum_tiles)

/-- Atom `a` of chunk `c`: position `32·c + a` of the 128 atoms. -/
def chunkPos (c : Fin 4) (a : Fin 32) : Fin 128 :=
  ⟨32 * c.val + a.val, by have := c.isLt; have := a.isLt; omega⟩

theorem chunkPos_val (c : Fin 4) (a : Fin 32) : (chunkPos c a).val = 32 * c.val + a.val := rfl

/-- Bond feature `g` of neighbour slot `d`: position `6·d + g` of the 30 flattened bond features. -/
def slot (d : Fin 5) (g : Fin 6) : Fin 30 :=
  ⟨6 * d.val + g.val, by have := d.isLt; have := g.isLt; omega⟩

theorem slot_val (d : Fin 5) (g : Fin 6) : (slot d g).val = 6 * d.val + g.val := rfl

/-- A sum over the 128 atoms, chunk by chunk. -/
theorem sum_chunks {β : Type*} [AddCommMonoid β] (f : Fin 128 → β) :
    ∑ k : Fin 128, f k = ∑ c : Fin 4, ∑ a : Fin 32, f (chunkPos c a) :=
  sum_tiles (n := 4) (K := 32) f

/-- One chunk's share of a masked sum over the atoms. -/
def poolChunk (c : Fin 4) (v μ : Fin 128 → EReal) : EReal := ∑ a : Fin 32, v (chunkPos c a) * μ (chunkPos c a)

/-- The masked sum over the atoms as the kernel accumulates it: from zero, one chunk after the other. -/
def pooled (v μ : Fin 128 → EReal) : EReal :=
  (((0 + poolChunk 0 v μ) + poolChunk 1 v μ) + poolChunk 2 v μ) + poolChunk 3 v μ

/-- The number of unmasked atoms, accumulated the same way. -/
def degree (μ : Fin 128 → EReal) : EReal :=
  (((0 + ∑ a : Fin 32, μ (chunkPos 0 a)) + ∑ a : Fin 32, μ (chunkPos 1 a)) + ∑ a : Fin 32, μ (chunkPos 2 a))
    + ∑ a : Fin 32, μ (chunkPos 3 a)

/-- The bond features of one atom summed over its five neighbour slots, read off the flattened features. -/
def bondSum (Bf : Fin 128 → Fin 30 → EReal) (a : Fin 128) (g : Fin 6) : EReal :=
  (((Bf a (slot 0 g) + Bf a (slot 1 g)) + Bf a (slot 2 g)) + Bf a (slot 3 g)) + Bf a (slot 4 g)

/-- The kernel's entry: the two pooled rows projected, plus the bias times the degree. -/
def kerEntry (A : Fin 128 → Fin 62 → EReal) (Bf : Fin 128 → Fin 30 → EReal) (μ : Fin 128 → EReal)
    (wa : Fin 62 → EReal) (wb : Fin 6 → EReal) (β : EReal) : EReal :=
  ((∑ f : Fin 62, pooled (fun a => A a f) μ * wa f) + ∑ g : Fin 6, pooled (fun a => bondSum Bf a g) μ * wb g)
    + β * degree μ

/-- The reference's entry: every atom projected, biased and masked, then summed from zero. -/
def refEntry (C : Fin 128 → Fin 68 → EReal) (μ : Fin 128 → EReal) (w : Fin 68 → EReal) (β : EReal) : EReal :=
  0 + ∑ a : Fin 128, ((∑ f : Fin 68, C a f * w f) + β) * μ a

/-- For real data the chunked masked sum is the plain one. -/
theorem pooled_real (v μ : Fin 128 → ℝ) :
    pooled (fun a => (v a : EReal)) (fun a => (μ a : EReal)) = ((∑ k : Fin 128, v k * μ k : ℝ) : EReal) := by
  unfold pooled poolChunk
  simp only [← EReal.coe_mul, ← coe_sum, zero_add, ← EReal.coe_add]
  rw [sum_chunks (fun k => v k * μ k), Fin.sum_univ_four]

/-- For a real mask the chunked count is the plain one. -/
theorem degree_real (μ : Fin 128 → ℝ) :
    degree (fun a => (μ a : EReal)) = ((∑ k : Fin 128, μ k : ℝ) : EReal) := by
  unfold degree
  simp only [← coe_sum, zero_add, ← EReal.coe_add]
  rw [sum_chunks μ, Fin.sum_univ_four]

/-- The five slots of real bond features added in order are their sum. -/
theorem bondSum_real (Bn : Fin 128 → Fin 5 → Fin 6 → ℝ) (Bf : Fin 128 → Fin 30 → EReal)
    (hBf : ∀ a d g, Bf a (slot d g) = ((Bn a d g : ℝ) : EReal)) (a : Fin 128) (g : Fin 6) :
    bondSum Bf a g = ((∑ d : Fin 5, Bn a d g : ℝ) : EReal) := by
  unfold bondSum
  rw [hBf, hBf, hBf, hBf, hBf]
  simp only [← EReal.coe_add]
  rw [Fin.sum_univ_five]

/-- THE LAW.  For real atom features, bond features, mask, weights and bias, the kernel's entry is the reference's. -/
theorem entry_eq (Ar : Fin 128 → Fin 62 → ℝ) (Bn : Fin 128 → Fin 5 → Fin 6 → ℝ) (μr : Fin 128 → ℝ) (wr : Fin 68 → ℝ)
    (βr : ℝ)
    (A : Fin 128 → Fin 62 → EReal) (hA : ∀ a f, A a f = ((Ar a f : ℝ) : EReal))
    (Bf : Fin 128 → Fin 30 → EReal) (hBf : ∀ a d g, Bf a (slot d g) = ((Bn a d g : ℝ) : EReal))
    (μ : Fin 128 → EReal) (hμ : ∀ a, μ a = ((μr a : ℝ) : EReal))
    (wa : Fin 62 → EReal) (hwa : ∀ f, wa f = ((wr (Fin.castAdd 6 f) : ℝ) : EReal))
    (wb : Fin 6 → EReal) (hwb : ∀ g, wb g = ((wr (Fin.natAdd 62 g) : ℝ) : EReal))
    (β : EReal) (hβ : β = ((βr : ℝ) : EReal))
    (C : Fin 128 → Fin 68 → EReal) (hC1 : ∀ a f, C a (Fin.castAdd 6 f) = A a f)
    (hC2 : ∀ a g, C a (Fin.natAdd 62 g) = 0 + ∑ d : Fin 5, ((Bn a d g : ℝ) : EReal))
    (w : Fin 68 → EReal) (hw : ∀ f, w f = ((wr f : ℝ) : EReal)) :
    kerEntry A Bf μ wa wb β = refEntry C μ w β := by
  obtain rfl : A = fun a f => ((Ar a f : ℝ) : EReal) := funext fun a => funext fun f => hA a f
  obtain rfl : μ = fun a => ((μr a : ℝ) : EReal) := funext hμ
  obtain rfl : wa = fun f => ((wr (Fin.castAdd 6 f) : ℝ) : EReal) := funext hwa
  obtain rfl : wb = fun g => ((wr (Fin.natAdd 62 g) : ℝ) : EReal) := funext hwb
  obtain rfl : w = fun f => ((wr f : ℝ) : EReal) := funext hw
  subst hβ
  unfold kerEntry refEntry
  have hsplit : ∀ a : Fin 128, (∑ f : Fin 68, C a f * ((wr f : ℝ) : EReal))
      = ((∑ f : Fin 62, Ar a f * wr (Fin.castAdd 6 f) + ∑ g : Fin 6, (∑ d : Fin 5, Bn a d g) * wr (Fin.natAdd 62 g) : ℝ) : EReal) := by
    intro a
    refine (Fin.sum_univ_add (a := 62) (b := 6) (fun f : Fin (62 + 6) => C a f * ((wr f : ℝ) : EReal))).trans ?_
    simp only [hC1, hC2, zero_add, ← coe_sum, ← EReal.coe_mul, ← EReal.coe_add]
  simp only [hsplit]
  have hpa : ∀ f : Fin 62, pooled (fun a => ((Ar a f : ℝ) : EReal)) (fun a => ((μr a : ℝ) : EReal))
      = ((∑ k : Fin 128, Ar k f * μr k : ℝ) : EReal) := fun f => pooled_real (fun a => Ar a f) μr
  have hpb : ∀ g : Fin 6, pooled (fun a => bondSum Bf a g) (fun a => ((μr a : ℝ) : EReal))
      = ((∑ k : Fin 128, (∑ d : Fin 5, Bn k d g) * μr k : ℝ) : EReal) := by
    intro g
    have : (fun a => bondSum Bf a g) = fun a => ((∑ d : Fin 5, Bn a d g : ℝ) : EReal) :=
      funext fun a => bondSum_real Bn Bf hBf a g
    rw [this]
    exact pooled_real (fun a => ∑ d : Fin 5, Bn a d g) μr
  simp only [hpa, hpb, degree_real, zero_add, ← coe_sum, ← EReal.coe_mul, ← EReal.coe_add]
  congr 1
  simp only [add_mul, Finset.sum_add_distrib, Finset.sum_mul, Finset.mul_sum]
  rw [Finset.sum_comm (s := (Finset.univ : Finset (Fin 62))), Finset.sum_comm (s := (Finset.univ : Finset (Fin 6)))]
  congr 1
  · congr 1
    · refine Finset.sum_congr rfl fun a _ => Finset.sum_congr rfl fun f _ => ?_
      ring
    · refine Finset.sum_congr rfl fun a _ => Finset.sum_congr rfl fun g _ => Finset.sum_congr rfl fun d _ => ?_
      ring

end Cert.Pool

end
-- ==== Proof.ChunkReads.lean ====
/-
  One chunk of 32 atoms, read at an entry.

  The kernel's block of one grid point holds 64 samples.  For each chunk of 32 atoms it loads the chunk's atom
  features and flattened bond features, takes the chunk's 32 mask columns as a trailing unit axis, multiplies, and
  sums over the chunk's atoms.  Each lemma here reads one of those vector expressions at explicit coordinates
  (sample `p`, feature `f` or `g`) as a finite sum over the chunk's atoms of entries of the block's arrays, the atom
  `a` of chunk `c` being atom `32·c + a` of the block.
-/
import proofs.«139823_j13434657702340_2_alg».proof.Proof.Gen.KernelIdeal.Skeleton
import proofs.«139823_j13434657702340_2_alg».proof.Proof.LibColumnForms
import proofs.«139823_j13434657702340_2_alg».proof.Proof.LibLayout3
import proofs.«139823_j13434657702340_2_alg».proof.Proof.PoolLaw
import Idealize.ShloMosaic.Lib.ValueIdx
import Idealize.ShloMosaic.Lib.Pipeline.Value
import Idealize.ShloMosaic.Lib.Pipeline.FrameBody

noncomputable section

open scoped BigOperators

namespace Cert.KernelIdeal.Chunk

open Cert.KernelIdeal Idealize.ShloMosaic Idealize.ShloMosaic.ValueIdx Cert.Pool

variable {α : Type}

/-- Columns `o … o+31` of the 64×128 mask block: column `a` of the slice is column `o + a` of the block. -/
theorem maskSlice_apply (v : S64x128.Idx → α) (o : Nat) (hs : S64x128.Slices ![0, o] S64x32)
    (p : Fin 64) (a : Fin 32) (k : Fin 128) (hk : k.val = o + a.val) :
    extractStridedSlice S64x32 ![0, o] v hs (ix2 p a) = v (ix2 p k) :=
  extractStridedSlice_apply ![0, o] v hs (ix2 p a) (ix2 p k) (fun ax => by
    match ax with
    | ⟨0, _⟩ => show p.val = 0 + p.val; omega
    | ⟨1, _⟩ => show k.val = o + a.val; exact hk)

/-- A 64×32 array given a trailing unit axis reads, at `(p, a, z)`, its entry `(p, a)`. -/
theorem unitCol_apply (v : S64x32.Idx → α) (hc : S64x32.ShapeCasts S64x32x1) (p : Fin 64) (a : Fin 32) (z : Fin 1) :
    shapeCast S64x32x1 v hc (ix3 p a z) = v (ix2 p a) :=
  shapeCast_apply v hc _ _ (by
    have hz : z.val = 0 := by omega
    rw [Shape.rowMajor_val_two, Shape.rowMajor_val_three]
    show p.val * 32 + a.val = (p.val * 32 + a.val) * 1 + z.val
    omega)

/-- The mask of chunk `c` as a column: the block's mask, unchanged by the cast to its own shape, sliced at columns
    `32·c …` and given a trailing unit axis, reads at `(p, a, z)` the mask of atom `32·c + a` of sample `p`. -/
theorem maskChunk_apply (x2 : S64x128.Idx → α) (c : Fin 4) (o : Nat) (ho : o = 32 * c.val) (h1 : S64x128.ShapeCasts S64x128)
    (hs : S64x128.Slices ![0, o] S64x32) (hc : S64x32.ShapeCasts S64x32x1) (p : Fin 64) (a : Fin 32) (z : Fin 1) :
    shapeCast S64x32x1 (extractStridedSlice S64x32 ![0, o] (shapeCast S64x128 x2 h1) hs) hc (ix3 p a z)
      = x2 (ix2 p (chunkPos c a)) := by
  rw [unitCol_apply, shapeCast_self]
  exact maskSlice_apply x2 o hs p a (chunkPos c a) (by rw [chunkPos_val, ho])

/-- Features `o … o+5` of the flattened bond features of a chunk. -/
theorem bondSlice_apply (v : S64x32x30.Idx → α) (o : Nat) (hs : S64x32x30.Slices ![0, 0, o] S64x32x6)
    (p : Fin 64) (a : Fin 32) (g : Fin 6) (j : Fin 30) (hj : j.val = o + g.val) :
    extractStridedSlice S64x32x6 ![0, 0, o] v hs (ix3 p a g) = v (ix3 p a j) :=
  extractStridedSlice_apply ![0, 0, o] v hs (ix3 p a g) (ix3 p a j) (fun ax => by
    match ax with
    | ⟨0, _⟩ => show p.val = 0 + p.val; omega
    | ⟨1, _⟩ => show a.val = 0 + a.val; omega
    | ⟨2, _⟩ => show j.val = o + g.val; exact hj)

/-- The atom features loaded for a chunk starting at atom `o`: atom `a` of the load is atom `o + a` of the block. -/
theorem ldAtoms_apply (X : Vec Ideal S64x128x62 .f32) (o : Nat)
    (inb : ∀ a, (![0, o, 0] : Fin 3 → Nat) a + S64x32x62.size a ≤ S64x128x62.size a)
    (p : Fin 64) (a : Fin 32) (f : Fin 62) (k : Fin 128) (hk : k.val = o + a.val) :
    View.ld X (Rect.unit (s := S64x128x62) ![0, o, 0] S64x32x62.size inb) (ix3 p a f) = X (ix3 p k f) := by
  show X ((Rect.unit (s := S64x128x62) ![0, o, 0] S64x32x62.size inb).emb (ix3 p a f)) = _
  refine congrArg X (funext fun ax => Fin.ext ?_)
  rw [Rect.emb_apply]
  match ax with
  | ⟨0, _⟩ => show 0 + 1 * p.val = p.val; omega
  | ⟨1, _⟩ => show o + 1 * a.val = k.val; omega
  | ⟨2, _⟩ => show 0 + 1 * f.val = f.val; omega

/-- The flattened bond features loaded for a chunk starting at atom `o`. -/
theorem ldBonds_apply (X : Vec Ideal S64x128x30 .f32) (o : Nat)
    (inb : ∀ a, (![0, o, 0] : Fin 3 → Nat) a + S64x32x30.size a ≤ S64x128x30.size a)
    (p : Fin 64) (a : Fin 32) (j : Fin 30) (k : Fin 128) (hk : k.val = o + a.val) :
    View.ld X (Rect.unit (s := S64x128x30) ![0, o, 0] S64x32x30.size inb) (ix3 p a j) = X (ix3 p k j) := by
  show X ((Rect.unit (s := S64x128x30) ![0, o, 0] S64x32x30.size inb).emb (ix3 p a j)) = _
  refine congrArg X (funext fun ax => Fin.ext ?_)
  rw [Rect.emb_apply]
  match ax with
  | ⟨0, _⟩ => show 0 + 1 * p.val = p.val; omega
  | ⟨1, _⟩ => show o + 1 * a.val = k.val; omega
  | ⟨2, _⟩ => show 0 + 1 * j.val = j.val; omega

/-- A mask column broadcast along 62 features reads the column. -/
theorem bcast62_apply (mc : S64x32x1.Idx → α) (hb : S64x32x1.Broadcasts S64x32x62) (p : Fin 64) (a : Fin 32) (f : Fin 62) :
    broadcastTo S64x32x62 mc hb (ix3 p a f) = mc (ix3 p a (0 : Fin 1)) :=
  broadcastTo_apply mc hb (ix3 p a f) (ix3 p a (0 : Fin 1)) fun ax => by
    match ax with
    | ⟨0, _⟩ => show p.val = if (64 : Nat) = 1 then 0 else p.val; rw [if_neg (by decide)]
    | ⟨1, _⟩ => show a.val = if (32 : Nat) = 1 then 0 else a.val; rw [if_neg (by decide)]
    | ⟨2, _⟩ => show 0 = if (1 : Nat) = 1 then 0 else f.val; rw [if_pos rfl]

/-- A mask column broadcast along 6 features reads the column. -/
theorem bcast6_apply (mc : S64x32x1.Idx → α) (hb : S64x32x1.Broadcasts S64x32x6) (p : Fin 64) (a : Fin 32) (g : Fin 6) :
    broadcastTo S64x32x6 mc hb (ix3 p a g) = mc (ix3 p a (0 : Fin 1)) :=
  broadcastTo_apply mc hb (ix3 p a g) (ix3 p a (0 : Fin 1)) fun ax => by
    match ax with
    | ⟨0, _⟩ => show p.val = if (64 : Nat) = 1 then 0 else p.val; rw [if_neg (by decide)]
    | ⟨1, _⟩ => show a.val = if (32 : Nat) = 1 then 0 else a.val; rw [if_neg (by decide)]
    | ⟨2, _⟩ => show 0 = if (1 : Nat) = 1 then 0 else g.val; rw [if_pos rfl]

/-- THE ATOM FEATURES OF ONE CHUNK, masked and summed over the chunk's atoms, at sample `p` and feature `f`: the
    chunk's share of the masked sum over the block's atoms.  `L` is the chunk as loaded and `mc` its mask column. -/
theorem chunkAtoms_apply (x0 : Vec Ideal S64x128x62 .f32) (x2 : Vec Ideal S64x128 .f32) (c : Fin 4)
    (L : FVec Ideal S64x32x62 .f32) (mc : FVec Ideal S64x32x1 .f32) (p : Fin 64) (f : Fin 62)
    (hL : ∀ a : Fin 32, L (ix3 p a f) = x0 (ix3 p (chunkPos c a) f))
    (hmc : ∀ a : Fin 32, mc (ix3 p a (0 : Fin 1)) = x2 (ix2 p (chunkPos c a)))
    (hb : S64x32x1.Broadcasts S64x32x62) (hr : S64x32x62.Reduces [1] S64x62) :
    multiReduction (F := Ideal) .add [1] S64x62 (mulf L (broadcastTo S64x32x62 mc hb)) 0x00000000#32 hr (.inl rfl) rfl (ix2 p f)
      = poolChunk c (fun a => x0 (ix3 p a f)) (fun a => x2 (ix2 p a)) := by
  refine (Cert.LibLayout3.midSum_apply (a := 64) (b := 32) (c := 62) _ hr (.inl rfl) rfl p f).trans ?_
  unfold poolChunk
  refine Finset.sum_congr rfl fun a _ => ?_
  rw [mulf_apply, bcast62_apply, hmc a, hL a]

/-- THE BOND FEATURES OF ONE CHUNK: the five neighbour slots of the flattened features added in order, masked and
    summed over the chunk's atoms, at sample `p` and bond feature `g`. -/
theorem chunkBonds_apply (x1 : Vec Ideal S64x128x30 .f32) (x2 : Vec Ideal S64x128 .f32) (c : Fin 4)
    (L : FVec Ideal S64x32x30 .f32) (mc : FVec Ideal S64x32x1 .f32) (p : Fin 64) (g : Fin 6)
    (hL : ∀ (a : Fin 32) (j : Fin 30), L (ix3 p a j) = x1 (ix3 p (chunkPos c a) j))
    (hmc : ∀ a : Fin 32, mc (ix3 p a (0 : Fin 1)) = x2 (ix2 p (chunkPos c a)))
    (hsc : S64x32x30.ShapeCasts S64x32x30)
    (h0 : S64x32x30.Slices ![0, 0, 0] S64x32x6) (h6 : S64x32x30.Slices ![0, 0, 6] S64x32x6)
    (h12 : S64x32x30.Slices ![0, 0, 12] S64x32x6) (h18 : S64x32x30.Slices ![0, 0, 18] S64x32x6)
    (h24 : S64x32x30.Slices ![0, 0, 24] S64x32x6)
    (hb : S64x32x1.Broadcasts S64x32x6) (hr : S64x32x6.Reduces [1] S64x6) :
    multiReduction (F := Ideal) .add [1] S64x6
        (mulf
          (addf (addf (addf (addf
            (extractStridedSlice S64x32x6 ![0, 0, 0] (shapeCast S64x32x30 L hsc) h0)
            (extractStridedSlice S64x32x6 ![0, 0, 6] (shapeCast S64x32x30 L hsc) h6))
            (extractStridedSlice S64x32x6 ![0, 0, 12] (shapeCast S64x32x30 L hsc) h12))
            (extractStridedSlice S64x32x6 ![0, 0, 18] (shapeCast S64x32x30 L hsc) h18))
            (extractStridedSlice S64x32x6 ![0, 0, 24] (shapeCast S64x32x30 L hsc) h24))
          (broadcastTo S64x32x6 mc hb)) 0x00000000#32 hr (.inl rfl) rfl (ix2 p g)
      = poolChunk c (fun a => bondSum (fun a j => x1 (ix3 p a j)) a g) (fun a => x2 (ix2 p a)) := by
  refine (Cert.LibLayout3.midSum_apply (a := 64) (b := 32) (c := 6) _ hr (.inl rfl) rfl p g).trans ?_
  unfold poolChunk bondSum
  refine Finset.sum_congr rfl fun a _ => ?_
  rw [mulf_apply, addf_apply, addf_apply, addf_apply, addf_apply, bcast6_apply, hmc a, shapeCast_self,
    bondSlice_apply _ 0 h0 p a g (slot 0 g) (by show 6 * 0 + g.val = 0 + g.val; omega),
    bondSlice_apply _ 6 h6 p a g (slot 1 g) (by show 6 * 1 + g.val = 6 + g.val; omega),
    bondSlice_apply _ 12 h12 p a g (slot 2 g) (by show 6 * 2 + g.val = 12 + g.val; omega),
    bondSlice_apply _ 18 h18 p a g (slot 3 g) (by show 6 * 3 + g.val = 18 + g.val; omega),
    bondSlice_apply _ 24 h24 p a g (slot 4 g) (by show 6 * 4 + g.val = 24 + g.val; omega),
    hL a (slot 0 g), hL a (slot 1 g), hL a (slot 2 g), hL a (slot 3 g), hL a (slot 4 g)]

/-- THE DEGREE OF ONE CHUNK: the chunk's mask columns summed over its atoms and kept as a one-column matrix, at
    sample `p`. -/
theorem chunkDeg_apply (x2 : Vec Ideal S64x128 .f32) (c : Fin 4) (o : Nat) (ho : o = 32 * c.val)
    (h1 : S64x128.ShapeCasts S64x128) (hs : S64x128.Slices ![0, o] S64x32)
    (hr : S64x32.Reduces [1] S64) (hc : S64.ShapeCasts S64x1) (p : Fin 64) (z : Fin 1) :
    shapeCast S64x1 (multiReduction (F := Ideal) .add [1] S64
        (extractStridedSlice S64x32 ![0, o] (shapeCast S64x128 x2 h1 : FVec Ideal S64x128 .f32) hs) 0x00000000#32 hr (.inl rfl) rfl) hc (ix2 p z)
      = ∑ a : Fin 32, x2 (ix2 p (chunkPos c a)) := by
  refine (Cert.Lib.ColumnForms.shapeCast_a_a1_apply _ hc p z).trans ?_
  refine (Cert.Lib.ColumnForms.rowSum_apply (a := 64) (b := 32) _ hr (.inl rfl) rfl p).trans ?_
  refine Finset.sum_congr rfl fun a _ => ?_
  rw [shapeCast_self]
  exact maskSlice_apply x2 o hs p a (chunkPos c a) (by rw [chunkPos_val, ho])

end Cert.KernelIdeal.Chunk

end
-- ==== Proof.LibMatmulNN.lean ====
/-
  A matrix product read at an entry, at the ideal instance.

  For a `tpu.matmul` whose dimension numbers are the plain ones — the left operand M×K contracted on its second axis,
  the right operand K×N contracted on its first, no batch axis — into the zero accumulator, the entry at row `a` and
  column `b` is the textbook sum over `k : Fin K` of `lhs (a, k) · rhs (k, b)` on the extended reals: the
  contraction's one-axis index set is identified with `Fin K` and each operand index is named by its coordinates.
  The lemma is stated for any dimension-number record with those five lists, so it applies to every printed record
  of this form whatever the extents.
-/
import Idealize.ShloMosaic.PureOps.Ideal.Laws
import Idealize.ShloMosaic.Lib.ValueIdx

noncomputable section

open scoped BigOperators

namespace Cert.LibMatmulNN

open Idealize.ShloMosaic Idealize.ShloMosaic.ValueIdx

variable {M K N : Nat} {φ₁ φ₂ : FTy}

/-- The contraction shape of a record with one left contracting axis has rank one. -/
theorem contr_rank (d : DotDims ⟨2, ![M, K]⟩ ⟨2, ![K, N]⟩ ⟨2, ![M, N]⟩) (hlc : d.lhsContracting = [1]) :
    d.contr.rank = 1 := by
  rw [d.rank_contr, hlc]; rfl

/-- Its one extent is the left operand's second. -/
theorem contr_size (d : DotDims ⟨2, ![M, K]⟩ ⟨2, ![K, N]⟩ ⟨2, ![M, N]⟩) (hlc : d.lhsContracting = [1]) :
    d.contr.size ⟨0, by rw [contr_rank d hlc]; exact Nat.one_pos⟩ = K := by
  have h := d.size_contr 0 (by rw [hlc]; exact Nat.one_pos)
  rw [h]
  simp only [hlc, List.getElem_cons_zero]
  rfl

/-- A rank-2 index read at a position known to be the first is its first coordinate. -/
theorem ix2_val_zero {n0 n1 : Nat} (a : Fin n0) (b : Fin n1) (p : Nat) (hp : p < 2) (h : p = 0) :
    (ix2 a b ⟨p, hp⟩).val = a.val := by subst h; rfl

/-- At a position known to be the second, its second coordinate. -/
theorem ix2_val_one {n0 n1 : Nat} (a : Fin n0) (b : Fin n1) (p : Nat) (hp : p < 2) (h : p = 1) :
    (ix2 a b ⟨p, hp⟩).val = b.val := by subst h; rfl

/-- The left operand's index at output `(a, b)` and contraction position `k` is `(a, k)`. -/
theorem lhsIdx_eq (d : DotDims ⟨2, ![M, K]⟩ ⟨2, ![K, N]⟩ ⟨2, ![M, N]⟩)
    (hlc : d.lhsContracting = [1]) (hln : d.lhsNonContracting = [0]) (hlb : d.lhsBatch = [])
    (a : Fin M) (b : Fin N) (k : Fin K) :
    d.lhsIdx (ix2 a b) ((contrEquiv1 d K (contr_rank d hlc) (contr_size d hlc)).symm k) = ix2 a k := by
  funext c
  apply Fin.ext
  match c with
  | ⟨0, _⟩ =>
    show (d.lhsIdx (ix2 a b) _ (0 : Fin 2)).val = a.val
    have hnb : (0 : Fin 2) ∉ d.lhsBatch := by rw [hlb]; exact List.not_mem_nil
    have hn : (0 : Fin 2) ∈ d.lhsNonContracting := by rw [hln]; exact List.mem_singleton.mpr rfl
    unfold DotDims.lhsIdx
    rw [dif_neg hnb, dif_pos hn]
    simp only [Fin.val_cast]
    exact ix2_val_zero a b _ _ (by simp [hlb, hln])
  | ⟨1, _⟩ =>
    show (d.lhsIdx (ix2 a b) _ (1 : Fin 2)).val = k.val
    rw [DotDims.lhsIdx_val_of_single d hlc]
    exact contrEquiv1_symm_val d K (contr_rank d hlc) (contr_size d hlc) k

/-- The right operand's index there is `(k, b)`. -/
theorem rhsIdx_eq (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (a : Fin M) (b : Fin N) (k : Fin K) :
    d.rhsIdx (ix2 a b) ((contrEquiv1 d K (contr_rank d hlc) (contr_size d hlc)).symm k) = ix2 k b := by
  funext c
  apply Fin.ext
  match c with
  | ⟨0, _⟩ =>
    show (d.rhsIdx (ix2 a b) _ (0 : Fin 2)).val = k.val
    rw [DotDims.rhsIdx_val_of_single d hrc]
    exact contrEquiv1_symm_val d K (contr_rank d hlc) (contr_size d hlc) k
  | ⟨1, _⟩ =>
    show (d.rhsIdx (ix2 a b) _ (1 : Fin 2)).val = b.val
    have hnb : (1 : Fin 2) ∉ d.rhsBatch := by rw [hrb]; exact List.not_mem_nil
    have hn : (1 : Fin 2) ∈ d.rhsNonContracting := by rw [hrn]; exact List.mem_singleton.mpr rfl
    unfold DotDims.rhsIdx
    rw [dif_neg hnb, dif_pos hn]
    simp only [Fin.val_cast]
    exact ix2_val_one a b _ _ (by simp [hlb, hln, hrn])

/-- A plain matrix product into the zero accumulator, read at the entry `(a, b)`: the sum over `k` of the left
    operand's `(a, k)` times the right operand's `(k, b)`. -/
theorem matmul_zero_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (lhs : FVec Ideal ⟨2, ![M, K]⟩ φ₁) (rhs : FVec Ideal ⟨2, ![K, N]⟩ φ₂) (a : Fin M) (b : Fin N) :
    FloatOps.matmul d prec lhs rhs (constant (F := Ideal) ⟨2, ![M, N]⟩ .f32 0x00000000#32) (ix2 a b)
      = ∑ k : Fin K, lhs (ix2 a k) * rhs (ix2 k b) := by
  rw [Ideal.matmul_constant_zero_apply]
  rw [← Equiv.sum_comp (contrEquiv1 d K (contr_rank d hlc) (contr_size d hlc)).symm]
  refine Finset.sum_congr rfl fun k _ => ?_
  rw [lhsIdx_eq d hlc hln hlb a b k, rhsIdx_eq d hlc hrc hln hrn hlb hrb a b k]

/-- The same for the product written with the vector operation `matmul`, as a printed kernel body applies it. -/
theorem matmul_zero_apply' (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (lhs : FVec Ideal ⟨2, ![M, K]⟩ φ₁) (rhs : FVec Ideal ⟨2, ![K, N]⟩ φ₂) (a : Fin M) (b : Fin N) :
    matmul d prec lhs rhs (constant (F := Ideal) ⟨2, ![M, N]⟩ .f32 0x00000000#32) (ix2 a b)
      = ∑ k : Fin K, lhs (ix2 a k) * rhs (ix2 k b) :=
  matmul_zero_apply d hlc hrc hln hrn hlb hrb prec lhs rhs a b

end Cert.LibMatmulNN

end
-- ==== Proof.KernelEntry.lean ====
/-
  What one grid point stores, read at an entry.

  The body of the kernel makes one store: at sample `p` and output feature `q` of the point's 64×128 block it is

    Σ_f pooledAtoms(p, f) · Wa(f, q)  +  Σ_g pooledBonds(p, g) · Wb(g, q)  +  b(q) · degree(p),

  the two products being matrix products into a zero accumulator (the rounding of their operands to bfloat16 is the
  identity on the extended reals), and the three pooled quantities accumulated from zero over four chunks of 32
  atoms.  The accumulators are followed chunk by chunk; the result is `Cert.Pool.kerEntry` of the block's arrays.
-/
import proofs.«139823_j13434657702340_2_alg».proof.Proof.Gen.KernelIdeal.Frame
import proofs.«139823_j13434657702340_2_alg».proof.Proof.ChunkReads
import proofs.«139823_j13434657702340_2_alg».proof.Proof.LibMatmulNN

noncomputable section

open scoped BigOperators

namespace Cert.KernelIdeal.Entry

open Cert.KernelIdeal Cert.KernelIdeal.Gen Idealize.ShloMosaic Idealize.ShloMosaic.ValueIdx Cert.Pool
open Cert.KernelIdeal.Chunk

theorem hz2 : (![0, 0] : Fin 2 → Nat) = fun _ => 0 := funext fun a => by fin_cases a <;> rfl

variable (x0 : Vec Ideal S64x128x62 .f32) (x1 : Vec Ideal S64x128x30 .f32) (x2 : Vec Ideal S64x128 .f32)

/-! ## The four mask columns -/

theorem mask0 (p : Fin 64) (a : Fin 32) (z : Fin 1) : k0_pay4 x2 (ix3 p a z) = x2 (ix2 p (chunkPos 0 a)) := by
  unfold k0_pay4 k0_pay3 k0_pay2
  exact maskChunk_apply x2 0 0 rfl _ _ _ p a z

theorem mask1 (p : Fin 64) (a : Fin 32) (z : Fin 1) : k0_pay10 x2 (ix3 p a z) = x2 (ix2 p (chunkPos 1 a)) := by
  unfold k0_pay10 k0_pay9 k0_pay2
  exact maskChunk_apply x2 1 32 rfl _ _ _ p a z

theorem mask2 (p : Fin 64) (a : Fin 32) (z : Fin 1) : k0_pay14 (k0_pay2 x2) (ix3 p a z) = x2 (ix2 p (chunkPos 2 a)) := by
  unfold k0_pay14 k0_pay13 k0_pay2
  exact maskChunk_apply x2 2 64 rfl _ _ _ p a z

/-! ## The loaded chunks -/

theorem atoms0 (p : Fin 64) (a : Fin 32) (f : Fin 62) : View.ld x0 r0_1 (ix3 p a f) = x0 (ix3 p (chunkPos 0 a) f) :=
  ldAtoms_apply x0 0 _ p a f (chunkPos 0 a) (by rw [chunkPos_val]; show 32 * 0 + a.val = 0 + a.val; omega)
theorem atoms1 (p : Fin 64) (a : Fin 32) (f : Fin 62) : View.ld x0 r0_3 (ix3 p a f) = x0 (ix3 p (chunkPos 1 a) f) :=
  ldAtoms_apply x0 32 _ p a f (chunkPos 1 a) (by rw [chunkPos_val]; show 32 * 1 + a.val = 32 + a.val; omega)
theorem atoms2 (p : Fin 64) (a : Fin 32) (f : Fin 62) : View.ld x0 r0_5 (ix3 p a f) = x0 (ix3 p (chunkPos 2 a) f) :=
  ldAtoms_apply x0 64 _ p a f (chunkPos 2 a) (by rw [chunkPos_val]; show 32 * 2 + a.val = 64 + a.val; omega)
theorem atoms3 (p : Fin 64) (a : Fin 32) (f : Fin 62) : View.ld x0 r0_7 (ix3 p a f) = x0 (ix3 p (chunkPos 3 a) f) :=
  ldAtoms_apply x0 96 _ p a f (chunkPos 3 a) (by rw [chunkPos_val]; show 32 * 3 + a.val = 96 + a.val; omega)

theorem bonds0 (p : Fin 64) (a : Fin 32) (j : Fin 30) : View.ld x1 r0_2 (ix3 p a j) = x1 (ix3 p (chunkPos 0 a) j) :=
  ldBonds_apply x1 0 _ p a j (chunkPos 0 a) (by rw [chunkPos_val]; show 32 * 0 + a.val = 0 + a.val; omega)
theorem bonds1 (p : Fin 64) (a : Fin 32) (j : Fin 30) : View.ld x1 r0_4 (ix3 p a j) = x1 (ix3 p (chunkPos 1 a) j) :=
  ldBonds_apply x1 32 _ p a j (chunkPos 1 a) (by rw [chunkPos_val]; show 32 * 1 + a.val = 32 + a.val; omega)
theorem bonds2 (p : Fin 64) (a : Fin 32) (j : Fin 30) : View.ld x1 r0_6 (ix3 p a j) = x1 (ix3 p (chunkPos 2 a) j) :=
  ldBonds_apply x1 64 _ p a j (chunkPos 2 a) (by rw [chunkPos_val]; show 32 * 2 + a.val = 64 + a.val; omega)
theorem bonds3 (p : Fin 64) (a : Fin 32) (j : Fin 30) : View.ld x1 r0_8 (ix3 p a j) = x1 (ix3 p (chunkPos 3 a) j) :=
  ldBonds_apply x1 96 _ p a j (chunkPos 3 a) (by rw [chunkPos_val]; show 32 * 3 + a.val = 96 + a.val; omega)

/-! ## The pooled atom features, chunk after chunk -/

theorem accA1 (p : Fin 64) (f : Fin 62) :
    k0_pay5 x2 (View.ld x0 r0_1) (ix2 p f)
      = 0 + poolChunk 0 (fun a => x0 (ix3 p a f)) (fun a => x2 (ix2 p a)) := by
  unfold k0_pay5
  dsimp only
  rw [addf_apply]
  exact congrArg₂ (· + ·) Ideal.ofBits_zero_f32
    (chunkAtoms_apply x0 x2 0 _ _ p f (fun a => atoms0 x0 p a f) (fun a => mask0 x2 p a 0) _ _)

theorem accA3 (p : Fin 64) (f : Fin 62) :
    k0_pay15 (k0_pay2 x2) (k0_pay5 x2 (View.ld x0 r0_1)) (View.ld x0 r0_3) (k0_pay10 x2) (View.ld x0 r0_5) (ix2 p f)
      = ((0 + poolChunk 0 (fun a => x0 (ix3 p a f)) (fun a => x2 (ix2 p a)))
          + poolChunk 1 (fun a => x0 (ix3 p a f)) (fun a => x2 (ix2 p a)))
          + poolChunk 2 (fun a => x0 (ix3 p a f)) (fun a => x2 (ix2 p a)) := by
  unfold k0_pay15
  dsimp only
  rw [addf_apply, addf_apply]
  exact congrArg₂ (· + ·) (congrArg₂ (· + ·) (accA1 x0 x2 p f)
      (chunkAtoms_apply x0 x2 1 _ _ p f (fun a => atoms1 x0 p a f) (fun a => mask1 x2 p a 0) _ _))
    (chunkAtoms_apply x0 x2 2 _ _ p f (fun a => atoms2 x0 p a f) (fun a => mask2 x2 p a 0) _ _)

/-! ## The pooled bond features -/

theorem accB1 (p : Fin 64) (g : Fin 6) :
    k0_pay6 x2 (View.ld x1 r0_2) (ix2 p g)
      = 0 + poolChunk 0 (fun a => bondSum (fun a j => x1 (ix3 p a j)) a g) (fun a => x2 (ix2 p a)) := by
  unfold k0_pay6
  dsimp only
  rw [addf_apply]
  exact congrArg₂ (· + ·) Ideal.ofBits_zero_f32
    (chunkBonds_apply x1 x2 0 _ _ p g (fun a j => bonds0 x1 p a j) (fun a => mask0 x2 p a 0) _ _ _ _ _ _ _ _)

theorem accB3 (p : Fin 64) (g : Fin 6) :
    k0_pay16 (k0_pay2 x2) (k0_pay6 x2 (View.ld x1 r0_2)) (k0_pay8 (View.ld x1 r0_4)) (k0_pay10 x2)
        (k0_pay11 (View.ld x1 r0_4)) (k0_pay12 (View.ld x1 r0_4)) (View.ld x1 r0_6) (ix2 p g)
      = ((0 + poolChunk 0 (fun a => bondSum (fun a j => x1 (ix3 p a j)) a g) (fun a => x2 (ix2 p a)))
          + poolChunk 1 (fun a => bondSum (fun a j => x1 (ix3 p a j)) a g) (fun a => x2 (ix2 p a)))
          + poolChunk 2 (fun a => bondSum (fun a j => x1 (ix3 p a j)) a g) (fun a => x2 (ix2 p a)) := by
  unfold k0_pay16 k0_pay11 k0_pay12 k0_pay8
  dsimp only
  rw [addf_apply, addf_apply]
  exact congrArg₂ (· + ·) (congrArg₂ (· + ·) (accB1 x1 x2 p g)
      (chunkBonds_apply x1 x2 1 _ _ p g (fun a j => bonds1 x1 p a j) (fun a => mask1 x2 p a 0) _ _ _ _ _ _ _ _))
    (chunkBonds_apply x1 x2 2 _ _ p g (fun a j => bonds2 x1 p a j) (fun a => mask2 x2 p a 0) _ _ _ _ _ _ _ _)

/-! ## The degree -/

theorem accD1 (p : Fin 64) (z : Fin 1) :
    k0_pay7 x2 (ix2 p z) = 0 + ∑ a : Fin 32, x2 (ix2 p (chunkPos 0 a)) := by
  unfold k0_pay7 k0_pay3 k0_pay2
  dsimp only
  rw [addf_apply]
  exact congrArg₂ (· + ·) Ideal.ofBits_zero_f32 (chunkDeg_apply x2 0 0 rfl _ _ _ _ p z)

theorem accD3 (p : Fin 64) (z : Fin 1) :
    k0_pay17 (k0_pay2 x2) (k0_pay7 x2) (k0_pay9 x2) (ix2 p z)
      = ((0 + ∑ a : Fin 32, x2 (ix2 p (chunkPos 0 a))) + ∑ a : Fin 32, x2 (ix2 p (chunkPos 1 a)))
          + ∑ a : Fin 32, x2 (ix2 p (chunkPos 2 a)) := by
  unfold k0_pay17 k0_pay13 k0_pay9 k0_pay2
  dsimp only
  rw [addf_apply, addf_apply]
  exact congrArg₂ (· + ·) (congrArg₂ (· + ·) (accD1 x2 p z) (chunkDeg_apply x2 1 32 rfl _ _ _ _ p z))
    (chunkDeg_apply x2 2 64 rfl _ _ _ _ p z)

/-! ## The bias row -/

/-- A one-row matrix broadcast over 64 rows reads its row. -/
theorem rowBcast_apply {α : Type} (v : S1x128.Idx → α) (hb : S1x128.Broadcasts S64x128) (p : Fin 64) (q : Fin 128) :
    broadcastTo S64x128 v hb (ix2 p q) = v (ix2 (0 : Fin 1) q) :=
  broadcastTo_apply v hb (ix2 p q) (ix2 (0 : Fin 1) q) fun ax => by
    match ax with
    | ⟨0, _⟩ => show 0 = if (1 : Nat) = 1 then 0 else p.val; rw [if_pos rfl]
    | ⟨1, _⟩ => show q.val = if (128 : Nat) = 1 then 0 else q.val; rw [if_neg (by decide)]

/-! ## The store -/

/-- THE ENTRY `(p, q)` OF WHAT A GRID POINT STORES, from the point's input blocks. -/
theorem out_apply (x3 : Vec Ideal S62x128 .f32) (x4 : Vec Ideal S6x128 .f32) (x5 : Vec Ideal S1x128 .f32)
    (p : Fin 64) (q : Fin 128) :
    out0_6 x0 x1 x2 x3 x4 x5 (ix2 p q)
      = kerEntry (fun a f => x0 (ix3 p a f)) (fun a j => x1 (ix3 p a j)) (fun a => x2 (ix2 p a))
          (fun f => x3 (ix2 f q)) (fun g => x4 (ix2 g q)) (x5 (ix2 (0 : Fin 1) q)) := by
  unfold out0_6
  rw [View.canon_unit_zero hz2]
  simp only [View.ld_unit_zero (S := S64x128) hz2, View.ld_unit_zero (S := S62x128) hz2,
    View.ld_unit_zero (S := S6x128) hz2, View.ld_unit_zero (S := S1x128) hz2]
  unfold k0_pay1
  dsimp only
  rw [addf_apply, addf_apply, mulf_apply]
  unfold kerEntry
  refine congrArg₂ (· + ·) (congrArg₂ (· + ·) ?_ ?_) (congrArg₂ (· * ·) ?_ ?_)
  · -- the pooled atom features against the first 62 rows of the weights
    refine (Cert.LibMatmulNN.matmul_zero_apply' (M := 64) (K := 62) (N := 128) dot_S64x62_S62x128_S64x128_1_0_0_1_n_n
      rfl rfl rfl rfl rfl rfl none _ _ p q).trans (Finset.sum_congr rfl fun f _ => congrArg₂ (· * ·) ?_ ?_)
    · rw [truncf_apply, addf_apply]
      unfold pooled
      exact congrArg₂ (· + ·) (accA3 x0 x2 p f)
        (chunkAtoms_apply x0 x2 3 _ _ p f (fun a => atoms3 x0 p a f)
          (fun a => maskChunk_apply x2 3 96 rfl _ _ _ p a 0) _ _)
    · rw [truncf_apply, shapeCast_self]
  · -- the pooled bond features against the last 6 rows
    refine (Cert.LibMatmulNN.matmul_zero_apply' (M := 64) (K := 6) (N := 128) dot_S64x6_S6x128_S64x128_1_0_0_1_n_n
      rfl rfl rfl rfl rfl rfl none _ _ p q).trans (Finset.sum_congr rfl fun g _ => congrArg₂ (· * ·) ?_ ?_)
    · rw [truncf_apply, addf_apply]
      unfold pooled
      exact congrArg₂ (· + ·) (accB3 x1 x2 p g)
        (chunkBonds_apply x1 x2 3 _ _ p g (fun a j => bonds3 x1 p a j)
          (fun a => maskChunk_apply x2 3 96 rfl _ _ _ p a 0) _ _ _ _ _ _ _ _)
    · rw [truncf_apply, shapeCast_self]
  · -- the bias row
    rw [rowBcast_apply, shapeCast_self, shapeCast_self]
  · -- the degree column
    refine (Cert.Lib.ColumnForms.broadcastTo_a1_ab_apply _ _ p q).trans ?_
    rw [addf_apply]
    unfold degree
    exact congrArg₂ (· + ·) (accD3 x2 p 0) (chunkDeg_apply x2 3 96 rfl _ _ _ _ p 0)

end Cert.KernelIdeal.Entry

end
-- ==== Proof.Blocks.lean ====
/-
  From the grid points' blocks to the whole result array.

  Grid point `t` of the 64 stages rows `64·t … 64·t + 63` of the atom features, of the flattened bond features and of
  the mask, the whole of the two weight matrices and of the bias row, and writes back rows `64·t … 64·t + 63` of the
  result.  So what it writes back is the block of ONE whole-array function, `kerArr`: the kernel's entry formula of
  the staged arrays at the array's own coordinates.  Every row lies in the block of point `row / 64`, hence after the
  run the result array is `kerArr` everywhere.
-/
import proofs.«139823_j13434657702340_2_alg».proof.Proof.Gen.KernelIdeal.Value
import proofs.«139823_j13434657702340_2_alg».proof.Proof.KernelEntry

noncomputable section

namespace Cert.KernelIdeal.Blocks

open Cert.KernelIdeal Cert.KernelIdeal.Gen Cert.KernelIdeal.Value Idealize.ShloMosaic Idealize.ShloMosaic.TcCoe
open Idealize.SL.Sem Idealize.ShloMosaic.ValueIdx Cert.Pool
open Idealize.ShloMosaic.Pipeline (Dat)

variable (m : (ℓ : Loc nD τ sig) → Buf (Elt Ideal) ℓ) (ρ : Dev nD → PrngReg)

/-- The kernel's entry formula at sample `s` and output feature `k`, of the six staged arrays. -/
def kerAt (X0 : Vec Ideal S4096x128x62 .f32) (X1 : Vec Ideal S4096x128x30 .f32) (X2 : Vec Ideal S4096x128 .f32)
    (X3 : Vec Ideal S62x128 .f32) (X4 : Vec Ideal S6x128 .f32) (X5 : Vec Ideal S1x128 .f32)
    (s : Fin 4096) (k : Fin 128) : EReal :=
  kerEntry (fun a f => X0 (ix3 s a f)) (fun a j => X1 (ix3 s a j)) (fun a => X2 (ix2 s a))
    (fun f => X3 (ix2 f k)) (fun g => X4 (ix2 g k)) (X5 (ix2 (0 : Fin 1) k))

/-- The same as one function of the result array's index. -/
def kerArr (X0 : Vec Ideal S4096x128x62 .f32) (X1 : Vec Ideal S4096x128x30 .f32) (X2 : Vec Ideal S4096x128 .f32)
    (X3 : Vec Ideal S62x128 .f32) (X4 : Vec Ideal S6x128 .f32) (X5 : Vec Ideal S1x128 .f32) : Vec Ideal S4096x128 .f32 :=
  fun i => kerAt X0 X1 X2 X3 X4 X5 ⟨(i 0).val, (i 0).isLt⟩ ⟨(i 1).val, (i 1).isLt⟩

/-- The printed index maps, decided over the grid: the three sample-indexed inputs and the output move one block of
    64 rows per grid point, the weights and the bias stay at their one block. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Row `p` of point `t`'s block is row `64·t + p` of the array. -/
def row (t : Fin cfg0.N) (p : Fin 64) : Fin 4096 :=
  ⟨64 * t.val + p.val, by have := t.isLt; have hN : cfg0.N = 64 := N_0; have := p.isLt; omega⟩

theorem row_val (t : Fin cfg0.N) (p : Fin 64) : (row t p).val = 64 * t.val + p.val := rfl

/-! ## The input blocks, read off the staged arrays -/

theorem iblk0_apply (c : Dev nD) (t : Fin cfg0.N) (p : Fin 64) (a : Fin 128) (f : Fin 62) :
    (iblk m c 0 t : Vec Ideal S64x128x62 .f32) (ix3 p a f) = (V m c main_arg0 : Vec Ideal S4096x128x62 .f32) (ix3 (row t p) a f) := by
  obtain ⟨e0, e1, e2, -⟩ := idx_facts t
  unfold iblk
  rw [View.read_apply]
  show V m c main_arg0 _ = V m c main_arg0 _
  congr 1
  funext ax
  apply Fin.ext
  match ax with
  | ⟨0, _⟩ => show win0_0.index t 0 * 64 + 1 * p.val = 64 * t.val + p.val; rw [e0]; omega
  | ⟨1, _⟩ => show win0_0.index t 1 * 128 + 1 * a.val = a.val; rw [e1]; omega
  | ⟨2, _⟩ => show win0_0.index t 2 * 62 + 1 * f.val = f.val; rw [e2]; omega

theorem iblk1_apply (c : Dev nD) (t : Fin cfg0.N) (p : Fin 64) (a : Fin 128) (j : Fin 30) :
    (iblk m c 1 t : Vec Ideal S64x128x30 .f32) (ix3 p a j) = (V m c main_v0 : Vec Ideal S4096x128x30 .f32) (ix3 (row t p) a j) := by
  obtain ⟨-, -, -, e0, e1, e2, -⟩ := idx_facts t
  unfold iblk
  rw [View.read_apply]
  show V m c main_v0 _ = V m c main_v0 _
  congr 1
  funext ax
  apply Fin.ext
  match ax with
  | ⟨0, _⟩ => show win0_1.index t 0 * 64 + 1 * p.val = 64 * t.val + p.val; rw [e0]; omega
  | ⟨1, _⟩ => show win0_1.index t 1 * 128 + 1 * a.val = a.val; rw [e1]; omega
  | ⟨2, _⟩ => show win0_1.index t 2 * 30 + 1 * j.val = j.val; rw [e2]; omega

theorem iblk2_apply (c : Dev nD) (t : Fin cfg0.N) (p : Fin 64) (a : Fin 128) :
    (iblk m c 2 t : Vec Ideal S64x128 .f32) (ix2 p a) = (V m c main_v4 : Vec Ideal S4096x128 .f32) (ix2 (row t p) a) := by
  obtain ⟨-, -, -, -, -, -, e0, e1, -⟩ := idx_facts t
  unfold iblk
  rw [View.read_apply]
  show V m c main_v4 _ = V m c main_v4 _
  congr 1
  funext ax
  apply Fin.ext
  match ax with
  | ⟨0, _⟩ => show win0_2.index t 0 * 64 + 1 * p.val = 64 * t.val + p.val; rw [e0]; omega
  | ⟨1, _⟩ => show win0_2.index t 1 * 128 + 1 * a.val = a.val; rw [e1]; omega

theorem iblk3_apply (c : Dev nD) (t : Fin cfg0.N) (f : Fin 62) (k : Fin 128) :
    (iblk m c 3 t : Vec Ideal S62x128 .f32) (ix2 f k) = (V m c main_v5 : Vec Ideal S62x128 .f32) (ix2 f k) := by
  obtain ⟨-, -, -, -, -, -, -, -, e0, e1, -⟩ := idx_facts t
  unfold iblk
  rw [View.read_apply]
  show V m c main_v5 _ = V m c main_v5 _
  congr 1
  funext ax
  apply Fin.ext
  match ax with
  | ⟨0, _⟩ => show win0_3.index t 0 * 62 + 1 * f.val = f.val; rw [e0]; omega
  | ⟨1, _⟩ => show win0_3.index t 1 * 128 + 1 * k.val = k.val; rw [e1]; omega

theorem iblk4_apply (c : Dev nD) (t : Fin cfg0.N) (g : Fin 6) (k : Fin 128) :
    (iblk m c 4 t : Vec Ideal S6x128 .f32) (ix2 g k) = (V m c main_v6 : Vec Ideal S6x128 .f32) (ix2 g k) := by
  obtain ⟨-, -, -, -, -, -, -, -, -, -, e0, e1, -⟩ := idx_facts t
  unfold iblk
  rw [View.read_apply]
  show V m c main_v6 _ = V m c main_v6 _
  congr 1
  funext ax
  apply Fin.ext
  match ax with
  | ⟨0, _⟩ => show win0_4.index t 0 * 6 + 1 * g.val = g.val; rw [e0]; omega
  | ⟨1, _⟩ => show win0_4.index t 1 * 128 + 1 * k.val = k.val; rw [e1]; omega

theorem iblk5_apply (c : Dev nD) (t : Fin cfg0.N) (z : Fin 1) (k : Fin 128) :
    (iblk m c 5 t : Vec Ideal S1x128 .f32) (ix2 z k) = (V m c main_v7 : Vec Ideal S1x128 .f32) (ix2 z k) := by
  obtain ⟨-, -, -, -, -, -, -, -, -, -, -, -, e0, e1, -⟩ := idx_facts t
  unfold iblk
  rw [View.read_apply]
  show V m c main_v7 _ = V m c main_v7 _
  congr 1
  funext ax
  apply Fin.ext
  match ax with
  | ⟨0, _⟩ => show win0_5.index t 0 * 1 + 1 * z.val = z.val; rw [e0]; omega
  | ⟨1, _⟩ => show win0_5.index t 1 * 128 + 1 * k.val = k.val; rw [e1]; omega

/-! ## What a point writes back, the cover, the array -/

/-- The result array's index under entry `(p, q)` of point `t`'s block. -/
theorem emb_out (t : Fin cfg0.N) (p : Fin 64) (q : Fin 128) :
    ((cfg0.win 6).blk t).view.emb (ix2 p q) = (ix2 (row t p) q : S4096x128.Idx) := by
  obtain ⟨-, -, -, -, -, -, -, -, -, -, -, -, -, -, e0, e1⟩ := idx_facts t
  funext ax
  apply Fin.ext
  match ax with
  | ⟨0, _⟩ => show win0_6.index t 0 * 64 + 1 * p.val = 64 * t.val + p.val; rw [e0]; omega
  | ⟨1, _⟩ => show win0_6.index t 1 * 128 + 1 * q.val = q.val; rw [e1]; omega

/-- WHAT POINT `t` WRITES BACK is block `t` of `kerArr` of the staged arrays. -/
theorem flushed_eq (c : Dev nD) (t : Fin cfg0.N) :
    (dats m 0 c).flushed 6 t = ((cfg0.win 6).blk t).view.read (Elt Ideal)
      (kerArr (V m c main_arg0) (V m c main_v0) (V m c main_v4) (V m c main_v5) (V m c main_v6) (V m c main_v7)) := by
  rw [flushed6 m c t]
  funext j
  obtain ⟨p, q, rfl⟩ : ∃ (p : Fin 64) (q : Fin 128), j = ix2 p q := ⟨j 0, j 1, eq_ix2 j⟩
  show out0_6 (iblk m c 0 t) (iblk m c 1 t) (iblk m c 2 t) (iblk m c 3 t) (iblk m c 4 t) (iblk m c 5 t) (ix2 p q)
    = kerArr (V m c main_arg0) (V m c main_v0) (V m c main_v4) (V m c main_v5) (V m c main_v6) (V m c main_v7)
        (((cfg0.win 6).blk t).view.emb (ix2 p q))
  rw [emb_out t p q]
  refine (Entry.out_apply (iblk m c 0 t) (iblk m c 1 t) (iblk m c 2 t) (iblk m c 3 t) (iblk m c 4 t) (iblk m c 5 t) p q).trans ?_
  show kerEntry _ _ _ _ _ _ = kerAt _ _ _ _ _ _ (row t p) q
  unfold kerAt
  exact congr (congr (congr (congr (congr (congrArg kerEntry
      (funext fun a => funext fun f => iblk0_apply m c t p a f))
      (funext fun a => funext fun j => iblk1_apply m c t p a j))
      (funext fun a => iblk2_apply m c t p a))
      (funext fun f => iblk3_apply m c t f q))
      (funext fun g => iblk4_apply m c t g q))
      (iblk5_apply m c t 0 q)

/-- An index of the array is in point `t`'s block iff each coordinate is in the block's range on its axis. -/
theorem mem_blk (t : Fin cfg0.N) (i : S4096x128.Idx) :
    i ∈ ((cfg0.win 6).blk t).view.set ↔ ∀ a : Fin 2, win0_6.index t a * S64x128.size a ≤ (i a).val ∧ (i a).val < win0_6.index t a * S64x128.size a + S64x128.size a := by
  show i ∈ ((View.whole main_v8).slice (win0_6.rect t)).set ↔ _
  rw [View.set_slice_whole, Rect.mem_set_unit]
  exact Iff.rfl

/-- Every index of the array lies in the block of the point its row names. -/
theorem cover (i : S4096x128.Idx) : ∃ t : Fin cfg0.N, (cfg0.win 6).flush t = true ∧ i ∈ ((cfg0.win 6).blk t).view.set := by
  have hN : cfg0.N = 64 := N_0
  have h0 : (i 0).val < 4096 := (i 0).isLt
  have h1 : (i 1).val < 128 := (i 1).isLt
  let t : Fin cfg0.N := ⟨(i 0).val / 64, by rw [hN]; omega⟩
  have ht : t.val = (i 0).val / 64 := rfl
  obtain ⟨-, -, -, -, -, -, -, -, -, -, -, -, -, -, e0, e1⟩ := idx_facts t
  refine ⟨t, flush0_6 t, ?_⟩
  rw [mem_blk]
  intro a
  match a with
  | ⟨0, _⟩ => show win0_6.index t 0 * 64 ≤ (i 0).val ∧ (i 0).val < win0_6.index t 0 * 64 + 64; rw [e0, ht]; omega
  | ⟨1, _⟩ => show win0_6.index t 1 * 128 ≤ (i 1).val ∧ (i 1).val < win0_6.index t 1 * 128 + 128; rw [e1]; omega

/-- THE RESULT ARRAY after the run is `kerArr` of the staged arrays. -/
theorem final (c : Dev nD) : (dats m 0 c).arrAt 6 cfg0.N
    = kerArr (V m c main_arg0) (V m c main_v0) (V m c main_v4) (V m c main_v5) (V m c main_v6) (V m c main_v7) :=
  (dats m 0 c).arrAt_eq_of_cover 6 _ (fun t _ => flushed_eq m c t) cover

/-- The kernel's run, read: the result array at `kerArr`, the arguments unchanged. -/
theorem run : θ_run defs (onTc (τ := τ) (main (F := Ideal))) ⟨m, fun _ => 0, ρ⟩ fun r => ∀ c : Dev nD,
      r.2.mem ((c : Thread nD τ).loc main_v8)
        = kerArr (V m c main_arg0) (V m c main_v0) (V m c main_v4) (V m c main_v5) (V m c main_v6) (V m c main_v7)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (run_blocks m ρ)

end Cert.KernelIdeal.Blocks

end
-- ==== Proof.LibCountAny.lean ====
/-
  Counting set bits against their `or`, and a reduction over the last axis read at an entry.

  * For any finite family of one-bit words (fewer than 2³² of them): their sum as 32-bit integers, each bit widened,
    cannot wrap, so the sum is zero exactly when every bit is, and "the count is not zero" is the `or` of the bits.
    This is `jnp.sum(p, axis) != 0` against `jnp.any(p, axis)` for a boolean `p`.
  * A one-bit word read as a float on the extended reals is the real number 0 or 1.
  * A host reduction with a commutative and associative body over the LAST axis of a rank-3 array, read at `(s, a)`, is
    the fold of the body over the entries `(s, a, d)`, from the initial value, for any extents.
-/
import Idealize.ShloMosaic.PureOps.Reduce
import Idealize.ShloMosaic.Lib.ValueIdx
import Idealize.ShloMosaic.PureOps.Ideal.Laws

noncomputable section

namespace Cert.LibCountAny

open Idealize.ShloMosaic Idealize.ShloMosaic.ValueIdx

/-- Over any subset of the family: the count does not exceed the number of members, and the `or` is zero exactly when
    the count is. -/
theorem count_or {ι : Type} [Fintype ι] [DecidableEq ι] (hι : Fintype.card ι < 2 ^ 32) (b : ι → BitVec 1) (S : Finset ι) :
    (S.fold IntOp.addi (0#32) (fun k => (b k).setWidth 32)).toNat ≤ S.card ∧
      (S.fold IntOp.ori (0#1) b = 0#1 ↔ (S.fold IntOp.addi (0#32) (fun k => (b k).setWidth 32)).toNat = 0) := by
  induction S using Finset.induction_on with
  | empty => simp
  | insert a S ha ih =>
    obtain ⟨h1, h2⟩ := ih
    have hc : (insert a S).card ≤ Fintype.card ι := Finset.card_le_univ _
    rw [Finset.card_insert_of_notMem ha] at hc
    rw [Finset.fold_insert ha, Finset.fold_insert ha, Finset.card_insert_of_notMem ha]
    rcases BitVec.eq_zero_or_eq_one (b a) with hb | hb
    · rw [hb]
      have e1 : IntOp.addi ((0#1).setWidth 32) (S.fold IntOp.addi (0#32) (fun k => (b k).setWidth 32))
          = S.fold IntOp.addi (0#32) (fun k => (b k).setWidth 32) := by
        show (0#1).setWidth 32 + _ = _
        rw [show (0#1).setWidth 32 = 0#32 from by decide, BitVec.zero_add]
      have e2 : IntOp.ori (0#1) (S.fold IntOp.ori (0#1) b) = S.fold IntOp.ori (0#1) b := by
        show 0#1 ||| _ = _
        rw [BitVec.zero_or]
      rw [e1, e2]
      exact ⟨by omega, h2⟩
    · rw [hb]
      have e1 : (IntOp.addi ((1#1).setWidth 32) (S.fold IntOp.addi (0#32) (fun k => (b k).setWidth 32))).toNat
          = 1 + (S.fold IntOp.addi (0#32) (fun k => (b k).setWidth 32)).toNat := by
        show ((1#1).setWidth 32 + _).toNat = _
        rw [show (1#1).setWidth 32 = 1#32 from by decide, BitVec.toNat_add]
        show (1 + _) % 2 ^ 32 = _
        exact Nat.mod_eq_of_lt (by omega)
      have e2 : IntOp.ori (1#1) (S.fold IntOp.ori (0#1) b) = 1#1 := by
        show 1#1 ||| _ = _
        rcases BitVec.eq_zero_or_eq_one (S.fold IntOp.ori (0#1) b) with h | h <;> rw [h] <;> decide
      rw [e1, e2]
      exact ⟨by omega, ⟨fun h => absurd h (by decide), fun h => by omega⟩⟩

/-- The count of the set bits compared with zero is the `or` of the bits. -/
theorem count_ne_zero_eq_any {ι : Type} [Fintype ι] [DecidableEq ι] (hι : Fintype.card ι < 2 ^ 32) (b : ι → BitVec 1) :
    IntOp.cmpi .ne ((Finset.univ : Finset ι).fold IntOp.addi (0#32) (fun k => (b k).setWidth 32)) (0#32)
      = (Finset.univ : Finset ι).fold IntOp.ori (0#1) b := by
  obtain ⟨-, h⟩ := count_or hι b Finset.univ
  rcases BitVec.eq_zero_or_eq_one ((Finset.univ : Finset ι).fold IntOp.ori (0#1) b) with ho | ho
  · rw [ho]
    have hz : (Finset.univ : Finset ι).fold IntOp.addi (0#32) (fun k => (b k).setWidth 32) = 0#32 :=
      BitVec.eq_of_toNat_eq (h.mp ho)
    rw [hz]
    decide
  · rw [ho]
    have hne : (Finset.univ : Finset ι).fold IntOp.addi (0#32) (fun k => (b k).setWidth 32) ≠ 0#32 := by
      intro hz
      have := h.mpr (by rw [hz]; rfl)
      rw [ho] at this
      exact absurd this (by decide)
    show BitVec.ofBool (_ != _) = 1#1
    rw [show ((Finset.univ : Finset ι).fold IntOp.addi (0#32) (fun k => (b k).setWidth 32) != 0#32) = true from by
      simpa using hne]
    rfl

/-- A one-bit word read as a float is a real number. -/
theorem uitofp_bit_real (b : BitVec 1) :
    FloatOps.uitofp (F := Ideal) .f32 b = (((b.toNat : ℝ)) : EReal) := rfl

/-- A reduction over the last axis of an `[n0, n1, n2]` array with a commutative and associative body, at `(s, a)`:
    the fold of the body over the entries `(s, a, d)`, from the initial value. -/
theorem reduce_last3_apply {α : Type} {n0 n1 n2 : Nat} (f : α → α → α) [Std.Commutative f] [Std.Associative f]
    (x : (⟨3, ![n0, n1, n2]⟩ : Shape).Idx → α) (init : (⟨0, ![]⟩ : Shape).Idx → α)
    (h' : (⟨3, ![n0, n1, n2]⟩ : Shape).ReducesTo [2] ⟨2, ![n0, n1]⟩)
    (h : (⟨3, ![n0, n1, n2]⟩ : Shape).Reduces [2] ⟨2, ![n0, n1]⟩) (hu : 0 < (⟨0, ![]⟩ : Shape).numel)
    (s : Fin n0) (a : Fin n1) :
    Host.reduce f x init h' hu (ix2 s a)
      = (Finset.univ : Finset (Fin n2)).fold f (init (Shape.Idx.first hu)) (fun d => x (ix3 s a d)) := by
  rw [Host.reduce_eq_fold_single f x init h' h hu (ix2 s a)]
  refine Finset.fold_congr fun d _ => ?_
  show x (h.lift (ix2 s a) d) = x (ix3 s a d)
  refine congrArg x (funext fun c => Fin.ext ?_)
  match c with
  | ⟨0, _⟩ => rfl
  | ⟨1, _⟩ => rfl
  | ⟨2, _⟩ => rfl

end Cert.LibCountAny

end
-- ==== Proof.MaskReduce.lean ====
/-
  The reductions over the five neighbour slots, read at an atom.

  Both programs compare every neighbour index with −1 and reduce the comparisons over the neighbour axis of the
  [4096, 128, 5] index array: the kernel's program by `or`, the reference by an integer sum of the comparisons widened
  to 32 bits.  Both operations are commutative and associative, so at sample `s` and atom `a` each reduction is the
  fold over the five slots `(s, a, d)`; with the count lemma the reference's "count ≠ 0" is the kernel's `or`.
-/
import proofs.«139823_j13434657702340_2_alg».proof.Proof.LibCountAny

noncomputable section

namespace Cert.MaskReduce

open Idealize.ShloMosaic Idealize.ShloMosaic.ValueIdx

/-- The neighbour-index array's shape and the mask's. -/
abbrev SE : Shape := ⟨3, ![4096, 128, 5]⟩
abbrev SM : Shape := ⟨2, ![4096, 128]⟩

theorem hred : SE.Reduces [2] SM := by decide

variable {α : Type}

/-- A reduction over the neighbour axis with a commutative and associative body, at sample `s` and atom `a`: the
    fold of the body over the five slots, from the initial value. -/
theorem reduce_slots_apply (f : α → α → α) [Std.Commutative f] [Std.Associative f] (x : SE.Idx → α)
    (init : (⟨0, ![]⟩ : Shape).Idx → α) (h' : SE.ReducesTo [2] SM) (hu : 0 < (⟨0, ![]⟩ : Shape).numel)
    (s : Fin 4096) (a : Fin 128) :
    Host.reduce f x init h' hu (ix2 s a)
      = (Finset.univ : Finset (Fin 5)).fold f (init (Shape.Idx.first hu)) (fun d => x (ix3 s a d)) :=
  Cert.LibCountAny.reduce_last3_apply f x init h' hred hu s a

/-- Slot `d` of atom `a` of sample `s` holds a neighbour: its index is not −1. -/
def bit (e : SE.Idx → BitVec 32) (s : Fin 4096) (a : Fin 128) (d : Fin 5) : BitVec 1 :=
  IntOp.cmpi .ne (e (ix3 s a d)) 4294967295#32

/-- The atom has at least one neighbour. -/
def anyBit (e : SE.Idx → BitVec 32) (s : Fin 4096) (a : Fin 128) : BitVec 1 :=
  (Finset.univ : Finset (Fin 5)).fold IntOp.ori (0#1) (bit e s a)

/-- The mask as a real number: 0 or 1. -/
def maskReal (e : SE.Idx → BitVec 32) (s : Fin 4096) (a : Fin 128) : ℝ := ((anyBit e s a).toNat : ℝ)

/-- The kernel's program: the `or` over the slots of the comparisons with a constant −1 array, from the bit 0. -/
theorem or_mask_apply (e : SE.Idx → BitVec 32) (k : SE.Idx → BitVec 32) (hk : ∀ i, k i = 4294967295#32)
    (init : (⟨0, ![]⟩ : Shape).Idx → BitVec 1) (hinit : ∀ i, init i = 0#1)
    (h' : SE.ReducesTo [2] SM) (hu : 0 < (⟨0, ![]⟩ : Shape).numel) (s : Fin 4096) (a : Fin 128) :
    Host.reduce IntOp.ori (fun i => IntOp.cmpi .ne (e i) (k i)) init h' hu (ix2 s a) = anyBit e s a := by
  rw [reduce_slots_apply, hinit]
  unfold anyBit bit
  refine Finset.fold_congr fun d _ => ?_
  rw [hk]

/-- The reference: the count of the comparisons, widened to 32 bits and summed from 0, compared with 0. -/
theorem count_mask_apply (e : SE.Idx → BitVec 32) (k : SE.Idx → BitVec 32) (hk : ∀ i, k i = 4294967295#32)
    (init : (⟨0, ![]⟩ : Shape).Idx → BitVec 32) (hinit : ∀ i, init i = 0#32)
    (h' : SE.ReducesTo [2] SM) (hu : 0 < (⟨0, ![]⟩ : Shape).numel) (s : Fin 4096) (a : Fin 128) :
    IntOp.cmpi .ne (Host.reduce IntOp.addi (fun i => (IntOp.cmpi .ne (e i) (k i)).setWidth 32) init h' hu (ix2 s a)) (0#32)
      = anyBit e s a := by
  rw [reduce_slots_apply, hinit]
  unfold anyBit
  rw [← Cert.LibCountAny.count_ne_zero_eq_any (by rw [Fintype.card_fin]; omega) (bit e s a)]
  refine congrArg (IntOp.cmpi .ne · (0#32)) (Finset.fold_congr fun d _ => ?_)
  unfold bit
  rw [hk]

end Cert.MaskReduce

end
-- ==== Proof.WeightRows.lean ====
/-
  The rows of the 68-row weight matrix: the first 62 multiply the atom features, the last 6 the summed bond features.
-/
import Mathlib.Data.Fin.Basic

namespace Cert.Pool

/-- Row `f` of the first 62 rows. -/
def rowA (f : Fin 62) : Fin 68 := ⟨f.val, by have := f.isLt; omega⟩

/-- Row `g` of the last 6 rows. -/
def rowB (g : Fin 6) : Fin 68 := ⟨62 + g.val, by have := g.isLt; omega⟩

theorem rowA_val (f : Fin 62) : (rowA f).val = f.val := rfl
theorem rowB_val (g : Fin 6) : (rowB g).val = 62 + g.val := rfl

/-- They are the two halves of `Fin (62 + 6)`. -/
theorem castAdd_eq_rowA (f : Fin 62) : Fin.castAdd 6 f = rowA f := rfl
theorem natAdd_eq_rowB (g : Fin 6) : Fin.natAdd 62 g = rowB g := rfl

end Cert.Pool
-- ==== Proof.HostArrays.lean ====
/-
  The arrays the kernel's windows stage, read at an entry.

  Before the kernel is launched its program re-lays the arguments: the bond features [4096, 128, 5, 6] are flattened to
  [4096, 128, 30] (slot `d`, feature `g` at position `6·d + g`), the mask is computed from the neighbour indices, the
  weight matrix is cut into its first 62 and its last 6 rows, and the bias becomes a one-row matrix.  Each lemma reads
  one of these arrays at explicit coordinates as an entry of an argument array.
-/
import proofs.«139823_j13434657702340_2_alg».proof.Proof.Gen.KernelIdeal.Frame
import proofs.«139823_j13434657702340_2_alg».proof.Proof.MaskReduce
import proofs.«139823_j13434657702340_2_alg».proof.Proof.PoolLaw
import proofs.«139823_j13434657702340_2_alg».proof.Proof.WeightRows
import Idealize.ShloMosaic.Lib.StableHlo.Run
import Idealize.ShloMosaic.Lib.Pipeline.Value
import Idealize.ShloMosaic.Lib.ValueIdx
import Idealize.ShloMosaic.PureOps.Ideal.Laws

noncomputable section

namespace Cert.KernelIdeal.HostArrays

open Cert.KernelIdeal Cert.KernelIdeal.Gen Idealize.ShloMosaic Idealize.ShloMosaic.TcCoe Idealize.SL.Sem
open Idealize.ShloMosaic.StableHlo Idealize.ShloMosaic.ValueIdx Cert.Pool Cert.MaskReduce

variable (m : (ℓ : Loc nD τ sig) → Buf (Elt Ideal) ℓ)

/-- The argument arrays on core `c`. -/
abbrev atoms (c : Dev nD) : (⟨S4096x128x62, .f32⟩ : BufTy).Contents (Elt Ideal) := m ((c : Thread nD τ).loc main_arg0)
abbrev bonds (c : Dev nD) : (⟨S4096x128x5x6, .f32⟩ : BufTy).Contents (Elt Ideal) := m ((c : Thread nD τ).loc main_arg1)
abbrev edges (c : Dev nD) : (⟨S4096x128x5, .i32⟩ : BufTy).Contents (Elt Ideal) := m ((c : Thread nD τ).loc main_arg2)
abbrev weights (c : Dev nD) : (⟨S68x128, .f32⟩ : BufTy).Contents (Elt Ideal) := m ((c : Thread nD τ).loc main_arg3)
abbrev bias (c : Dev nD) : (⟨S128, .f32⟩ : BufTy).Contents (Elt Ideal) := m ((c : Thread nD τ).loc main_arg4)

/-- The flattened bond features at position `6·d + g` are the bond features of slot `d`, feature `g`. -/
theorem bondsFlat_apply (c : Dev nD) (s : Fin 4096) (a : Fin 128) (d : Fin 5) (g : Fin 6) :
    (V m c main_v0 : (⟨S4096x128x30, .f32⟩ : BufTy).Contents (Elt Ideal)) (ix3 s a (slot d g))
      = bonds m c (ix4 s a d g) := by
  have e : (V m c main_v0 : (⟨S4096x128x30, .f32⟩ : BufTy).Contents (Elt Ideal))
      = shapeCast S4096x128x30 (bonds m c) shapeCasts_S4096x128x5x6_S4096x128x30 := by
    dsimp only [Gen.V, Gen.hostOps0]; after_results <;> rfl
  rw [e]
  refine shapeCast_apply _ _ _ _ ?_
  rw [Shape.rowMajor_val_four, Shape.rowMajor_val_three]
  show ((s.val * 128 + a.val) * 5 + d.val) * 6 + g.val = (s.val * 128 + a.val) * 30 + (6 * d.val + g.val)
  omega

/-- The mask at sample `s`, atom `a`: the real number 0 or 1 saying whether the atom has a neighbour. -/
theorem mask_apply (c : Dev nD) (s : Fin 4096) (a : Fin 128) :
    (V m c main_v4 : (⟨S4096x128, .f32⟩ : BufTy).Contents (Elt Ideal)) (ix2 s a)
      = ((maskReal (edges m c) s a : ℝ) : EReal) := by
  have e : (V m c main_v4 : (⟨S4096x128, .f32⟩ : BufTy).Contents (Elt Ideal))
      = uitofp (F := Ideal) .f32 (Host.reduce IntOp.ori
          (cmpi .ne (edges m c) (broadcastInDim S4096x128x5 ![] bcast_S_S4096x128x5 (constantI S_ 32 4294967295#32)))
          (constantI S_ 1 0#1) reducesTo_S4096x128x5_S4096x128_d2 h_S_) := by
    dsimp only [Gen.V, Gen.hostOps0]; after_results <;> rfl
  rw [e]
  show FloatOps.uitofp (F := Ideal) .f32 (Host.reduce IntOp.ori _ _ _ _ (ix2 s a)) = _
  rw [Cert.LibCountAny.uitofp_bit_real]
  unfold maskReal
  refine congrArg (fun b : BitVec 1 => ((b.toNat : ℝ) : EReal)) ?_
  exact or_mask_apply (edges m c) _
    (fun i => broadcastInDim_apply _ bcast_S_S4096x128x5 (constantI S_ 32 4294967295#32) i (fun a => a.elim0) (fun a => a.elim0))
    _ (fun _ => rfl) _ _ s a

/-- The first 62 rows of the weights. -/
theorem wa_apply (c : Dev nD) (f : Fin 62) (k : Fin 128) :
    (V m c main_v5 : (⟨S62x128, .f32⟩ : BufTy).Contents (Elt Ideal)) (ix2 f k) = weights m c (ix2 (rowA f) k) := by
  have e : (V m c main_v5 : (⟨S62x128, .f32⟩ : BufTy).Contents (Elt Ideal))
      = extractStridedSlice S62x128 ![0, 0] (weights m c) slices_S68x128_S62x128_0_0 := by
    dsimp only [Gen.V, Gen.hostOps0]; after_results <;> rfl
  rw [e]
  refine extractStridedSlice_apply ![0, 0] _ _ (ix2 f k) (ix2 (rowA f) k) fun ax => ?_
  match ax with
  | ⟨0, _⟩ => show f.val = 0 + f.val; omega
  | ⟨1, _⟩ => show k.val = 0 + k.val; omega

/-- The last 6 rows of the weights. -/
theorem wb_apply (c : Dev nD) (g : Fin 6) (k : Fin 128) :
    (V m c main_v6 : (⟨S6x128, .f32⟩ : BufTy).Contents (Elt Ideal)) (ix2 g k) = weights m c (ix2 (rowB g) k) := by
  have e : (V m c main_v6 : (⟨S6x128, .f32⟩ : BufTy).Contents (Elt Ideal))
      = extractStridedSlice S6x128 ![62, 0] (weights m c) slices_S68x128_S6x128_62_0 := by
    dsimp only [Gen.V, Gen.hostOps0]; after_results <;> rfl
  rw [e]
  refine extractStridedSlice_apply ![62, 0] _ _ (ix2 g k) (ix2 (rowB g) k) fun ax => ?_
  match ax with
  | ⟨0, _⟩ => show 62 + g.val = 62 + g.val; rfl
  | ⟨1, _⟩ => show k.val = 0 + k.val; omega

/-- The bias as a one-row matrix. -/
theorem biasRow_apply (c : Dev nD) (k : Fin 128) :
    (V m c main_v7 : (⟨S1x128, .f32⟩ : BufTy).Contents (Elt Ideal)) (ix2 (0 : Fin 1) k) = bias m c (ix1 k) := by
  have e : (V m c main_v7 : (⟨S1x128, .f32⟩ : BufTy).Contents (Elt Ideal))
      = shapeCast S1x128 (bias m c) shapeCasts_S128_S1x128 := by
    dsimp only [Gen.V, Gen.hostOps0]; after_results <;> rfl
  rw [e]
  refine shapeCast_apply _ _ _ _ ?_
  rw [Shape.rowMajor_val_one, Shape.rowMajor_val_two]
  show k.val = 0 * 128 + k.val
  omega

/-- The atom features are staged as they are. -/
theorem atoms_eq (c : Dev nD) :
    (V m c main_arg0 : (⟨S4096x128x62, .f32⟩ : BufTy).Contents (Elt Ideal)) = atoms m c := V_main_arg0 m c

end Cert.KernelIdeal.HostArrays

end
-- ==== Proof.RefEntry.lean ====
/-
  The reference, read at an entry.

  At sample `s` and output feature `k` the reference's result is, from zero, the sum over the 128 atoms of
  (Σ_f concat(s, a, f) · W(f, k) + b(k)) · mask(s, a), where `concat` is the 62 atom features followed by the 6 bond
  features summed over the five neighbour slots, and `mask` is 1 exactly when the atom has a neighbour.  The last
  stage is read through the generated stage lemmas; the concatenation and the integer count behind the mask, which
  those lemmas leave, are read here.
-/
import proofs.«139823_j13434657702340_2_alg».proof.Proof.Gen.ReferenceIdeal.Read
import proofs.«139823_j13434657702340_2_alg».proof.Proof.MaskReduce
import proofs.«139823_j13434657702340_2_alg».proof.Proof.PoolLaw
import proofs.«139823_j13434657702340_2_alg».proof.Proof.WeightRows

noncomputable section

open scoped BigOperators

namespace Cert.ReferenceIdeal.Entry

open Cert.ReferenceIdeal Cert.ReferenceIdeal.Read Idealize.ShloMosaic Idealize.ShloMosaic.ValueIdx Cert.Pool Cert.MaskReduce
open Cert.ReferenceIdeal.Facts₀ Cert.ReferenceIdeal.Facts

variable (x0 : (⟨S4096x128x62, .f32⟩ : BufTy).Contents (Elt Ideal)) (x1 : (⟨S4096x128x5x6, .f32⟩ : BufTy).Contents (Elt Ideal))
  (x2 : (⟨S4096x128x5, .i32⟩ : BufTy).Contents (Elt Ideal)) (x3 : (⟨S68x128, .f32⟩ : BufTy).Contents (Elt Ideal))
  (x4 : (⟨S128, .f32⟩ : BufTy).Contents (Elt Ideal))

/-- The first 62 features of the concatenation are the atom features. -/
theorem concat_atoms (s : Fin 4096) (a : Fin 128) (f : Fin 62) :
    val_main_v9 (F := Ideal) x0 x1 (ix3 s a (rowA f)) = x0 (ix3 s a f) := by
  unfold val_main_v9
  exact concatenate_pair_apply_left 2 x0 _ concatenates_S4096x128x62_S4096x128x6_S4096x128x68_d2 (ix3 s a (rowA f)) rfl
    (ix3 s a f) (fun b => by
      match b with
      | ⟨0, _⟩ => rfl
      | ⟨1, _⟩ => rfl
      | ⟨2, _⟩ => rfl)

/-- The last 6 are the bond features summed, from zero, over the five neighbour slots. -/
theorem concat_bonds (s : Fin 4096) (a : Fin 128) (g : Fin 6) :
    val_main_v9 (F := Ideal) x0 x1 (ix3 s a (rowB g)) = 0 + ∑ d : Fin 5, x1 (ix4 s a d g) := by
  unfold val_main_v9
  refine (concatenate_pair_apply_right 2 x0 (val_main_v8 (F := Ideal) x1)
    concatenates_S4096x128x62_S4096x128x6_S4096x128x68_d2 (ix3 s a (rowB g)) rfl rfl (ix3 s a g) (fun b hb => by
      match b with
      | ⟨0, _⟩ => rfl
      | ⟨1, _⟩ => rfl
      | ⟨2, _⟩ => exact absurd rfl hb) (by show g.val + 62 = 62 + g.val; omega)).trans ?_
  rw [val_main_v8_apply]
  refine congrArg₂ (· + ·) Ideal.ofBits_zero_f32 (Finset.sum_congr rfl fun d _ => congrArg x1 ?_)
  funext ax
  apply Fin.ext
  match ax with
  | ⟨0, _⟩ => rfl
  | ⟨1, _⟩ => rfl
  | ⟨2, _⟩ => rfl
  | ⟨3, _⟩ => rfl

/-- The mask: "the count of neighbours is not zero", as the real number 0 or 1. -/
theorem mask_apply (s : Fin 4096) (a : Fin 128) :
    val_main_v7 (F := Ideal) x2 (ix3 s a (0 : Fin 1)) = ((maskReal x2 s a : ℝ) : EReal) := by
  have i4 : idx_main_v4 (ix3 s a (0 : Fin 1)) = ix2 s a := funext fun b => Fin.ext (by
    match b with
    | ⟨0, _⟩ => rfl
    | ⟨1, _⟩ => rfl)
  rw [val_main_v7_apply, Cert.LibCountAny.uitofp_bit_real]
  unfold maskReal
  refine congrArg (fun b : BitVec 1 => ((b.toNat : ℝ) : EReal)) ?_
  rw [val_main_v6_apply, val_main_v4_apply, val_main_v5_apply, i4]
  exact count_mask_apply x2 (val_main_v0 (F := Ideal)) (fun i => val_main_v0_apply (F := Ideal) i)
    (val_main_c_0 (F := Ideal)) (fun _ => rfl) reducesTo_S4096x128x5_S4096x128_d2 h_S_ s a

/-- THE REFERENCE'S ENTRY `(s, k)`. -/
theorem out_apply (s : Fin 4096) (k : Fin 128) :
    val_main_v16 (F := Ideal) x0 x1 x2 x3 x4 (ix2 s k)
      = refEntry (fun a f => val_main_v9 (F := Ideal) x0 x1 (ix3 s a f))
          (fun a => val_main_v7 (F := Ideal) x2 (ix3 s a (0 : Fin 1))) (fun f => x3 (ix2 f k)) (x4 (ix1 k)) := by
  have i16 : ∀ a : Fin 128, idx_main_v16 (ix2 s k) a = ix3 s a k := fun a => funext fun b => Fin.ext (by
    match b with
    | ⟨0, _⟩ => rfl
    | ⟨1, _⟩ => rfl
    | ⟨2, _⟩ => rfl)
  have il : ∀ (a : Fin 128) (f : Fin 68), lidx_main_v10 (ix3 s a k) f = ix3 s a f := fun a f => funext fun b => Fin.ext (by
    match b with
    | ⟨0, _⟩ => rfl
    | ⟨1, _⟩ => rfl
    | ⟨2, _⟩ => rfl)
  have ir : ∀ (a : Fin 128) (f : Fin 68), ridx_main_v10 (ix3 s a k) f = ix2 f k := fun a f => funext fun b => Fin.ext (by
    match b with
    | ⟨0, _⟩ => rfl
    | ⟨1, _⟩ => rfl)
  have i12 : ∀ a : Fin 128, idx_main_v11 (idx_main_v12 (ix3 s a k)) = ix1 k := fun a => funext fun b => Fin.ext (by
    match b with
    | ⟨0, _⟩ => rfl)
  have i14 : ∀ a : Fin 128, idx_main_v14 (ix3 s a k) = ix3 s a (0 : Fin 1) := fun a => funext fun b => Fin.ext (by
    match b with
    | ⟨0, _⟩ => rfl
    | ⟨1, _⟩ => rfl
    | ⟨2, _⟩ => rfl)
  rw [val_main_v16_apply]
  unfold refEntry
  refine congrArg₂ (· + ·) Ideal.ofBits_zero_f32 (Finset.sum_congr rfl fun a _ => ?_)
  rw [i16 a, val_main_v15_apply, val_main_v13_apply, val_main_v10_apply, val_main_v12_apply, val_main_v11_apply,
    val_main_v14_apply, i12 a, i14 a]
  simp only [il, ir]
  rfl

end Cert.ReferenceIdeal.Entry

end
-- ==== Proof.LibFiniteAll.lean ====
/-
  "Every entry is finite", read.

  A precondition `jnp.all(jnp.abs(x) < inf)` prints as the `and`-reduction, over all axes and from the bit 1, of the
  comparisons of |x| with the word of +∞.  If the reduction is 1 every comparison is 1; on the extended reals
  max(x, −x) < +∞ excludes both infinities, so every entry is the real number it denotes.  Stated for any shape and
  any list of reduced axes.
-/
import Idealize.ShloMosaic.Lib.ReduceAll
import Idealize.ShloMosaic.Lib.ValueIdx
import Idealize.ShloMosaic.Lib.Pipeline.Value
import Idealize.ShloMosaic.PureOps.Ideal.Laws

noncomputable section

namespace Cert.LibFiniteAll

open Idealize.ShloMosaic

/-- The word 0x7F800000 is +∞. -/
theorem inf_word : Ideal.ofBits .f32 0x7F800000#32 = ⊤ := by simp [Ideal.ofBits, Ideal.ieee]

/-- An extended real whose absolute value compares below +∞ is a real number. -/
theorem real_of_abs_lt (x : EReal) (h : Ideal.cmp .olt (max x (-x)) ⊤ = 1#1) : x = ((x.toReal : ℝ) : EReal) := by
  have hlt : max x (-x) < ⊤ := by
    by_contra hn
    have h0 : Ideal.cmp .olt (max x (-x)) ⊤ = 0#1 := by
      show BitVec.ofBool (decide (max x (-x) < ⊤)) = 0#1
      rw [decide_eq_false hn]; rfl
    rw [h0] at h
    exact absurd h (by decide)
  have h1 : x ≠ ⊤ := by
    rintro rfl
    exact absurd hlt (by simp)
  have h2 : x ≠ ⊥ := by
    rintro rfl
    exact absurd hlt (by simp)
  exact (EReal.coe_toReal h1 h2).symm

/-- The rank-zero shape has one index. -/
instance : Subsingleton (⟨0, ![]⟩ : Shape).Idx := ⟨fun a b => funext fun d => d.elim0⟩

/-- One argument's test: if "all entries have |x| < +∞" is 1, every entry is a real number. -/
theorem real_of_all {s : Shape} {axes : List (Fin s.rank)} (x : FVec Ideal s .f32)
    (hbc : (⟨0, ![]⟩ : Shape).BroadcastsInDim s (![] : Fin 0 → Fin s.rank)) (red : s.ReducesTo axes ⟨0, ![]⟩)
    (hu : 0 < (⟨0, ![]⟩ : Shape).numel)
    (h : Host.reduce IntOp.andi
          (cmpf .olt (Host.absf x) (broadcastInDim s ![] hbc (constant (F := Ideal) ⟨0, ![]⟩ .f32 0x7F800000#32)))
          (constantI ⟨0, ![]⟩ 1 1#1) red hu ValueIdx.ix0 = 1#1) (i : s.Idx) :
    x i = (((x i).toReal : ℝ) : EReal) := by
  have hi : Ideal.cmp .olt (max (x i) (-(x i)))
      (broadcastInDim s ![] hbc (constant (F := Ideal) ⟨0, ![]⟩ .f32 0x7F800000#32) i) = 1#1 :=
    Host.reduce_andi_all _ _ red hu ValueIdx.ix0 h i
  have hb : broadcastInDim s ![] hbc (constant (F := Ideal) ⟨0, ![]⟩ .f32 0x7F800000#32) i = ⊤ :=
    (broadcastInDim_apply _ hbc _ i (fun a => a.elim0) (fun a => a.elim0)).trans inf_word
  rw [hb] at hi
  exact real_of_abs_lt (x i) hi

end Cert.LibFiniteAll

end
-- ==== Proof.Finite.lean ====
/-
  The precondition, read: every float argument holds real numbers.

  The precondition is the `and` of four tests, one per float argument, each the `and` over all entries of
  "|x| < +∞".  If the whole is 1 then each test is 1, and every entry of each float argument is a real number.
-/
import proofs.«139823_j13434657702340_2_alg».proof.Pre_finite_inputs
import proofs.«139823_j13434657702340_2_alg».proof.Proof.LibFiniteAll

noncomputable section

namespace Cert.Finite

open Idealize.ShloMosaic Cert.Pre_finite_inputs Cert.LibFiniteAll

variable [Facts]
open Facts

/-- THE PRECONDITION READ: the atom features, the bond features, the weights and the bias hold real numbers. -/
theorem all_real (x0 : FVec Ideal S4096x128x62 .f32) (x1 : FVec Ideal S4096x128x5x6 .f32) (x2 : IVec S4096x128x5 32)
    (x3 : FVec Ideal S68x128 .f32) (x4 : FVec Ideal S128 .f32)
    (h : fn (F := Ideal) x0 x1 x2 x3 x4 = fun _ => 1#1) :
    (∀ i, x0 i = (((x0 i).toReal : ℝ) : EReal)) ∧ (∀ i, x1 i = (((x1 i).toReal : ℝ) : EReal))
      ∧ (∀ i, x3 i = (((x3 i).toReal : ℝ) : EReal)) ∧ (∀ i, x4 i = (((x4 i).toReal : ℝ) : EReal)) := by
  have h0 := congrFun h ValueIdx.ix0
  dsimp only [fn, fn_part1] at h0
  obtain ⟨h123, h4⟩ := IntOp.andi_eq_one.mp (show IntOp.andi _ _ = 1#1 from h0)
  obtain ⟨h12, h3⟩ := IntOp.andi_eq_one.mp (show IntOp.andi _ _ = 1#1 from h123)
  obtain ⟨h1, h2⟩ := IntOp.andi_eq_one.mp (show IntOp.andi _ _ = 1#1 from h12)
  exact ⟨real_of_all x0 bcast_S_S4096x128x62 reducesTo_S4096x128x62_S_d0_1_2 h_S_ h1,
    real_of_all x1 bcast_S_S4096x128x5x6 reducesTo_S4096x128x5x6_S_d0_1_2_3 h_S_ h2,
    real_of_all x3 bcast_S_S68x128 reducesTo_S68x128_S_d0_1 h_S_ h3,
    real_of_all x4 bcast_S_S128 reducesTo_S128_S_d0 h_S_ h4⟩

end Cert.Finite

end
-- ==== Proof.Bridge.lean ====
/-
  The two programs compute one function.

  Under the precondition every float argument holds real numbers, and the mask is the real number 0 or 1 whatever
  the neighbour indices are.  At sample `s` and output feature `k` the kernel's result is its entry formula of the
  staged arrays, which are the arguments re-laid (flattened bonds, the two parts of the weights, the bias row, the
  mask); the reference's result is its entry formula of the same arguments, with the same mask.  The pooling law
  joins the two.
-/
import proofs.«139823_j13434657702340_2_alg».proof.Proof.Blocks
import proofs.«139823_j13434657702340_2_alg».proof.Proof.HostArrays
import proofs.«139823_j13434657702340_2_alg».proof.Proof.RefEntry
import proofs.«139823_j13434657702340_2_alg».proof.Proof.Finite

noncomputable section

open scoped BigOperators

namespace Cert.Bridge

open Idealize.ShloMosaic Idealize.ShloMosaic.TcCoe Idealize.SL.Sem Idealize.ShloMosaic.ValueIdx
open Cert.Pool Cert.MaskReduce Cert.KernelIdeal Cert.KernelIdeal.Gen Cert.KernelIdeal.HostArrays Cert.KernelIdeal.Blocks

variable (m : (ℓ : Loc nD τ sig) → Buf (Elt Ideal) ℓ)

/-- On every core, under the precondition, the reference's result term of the arguments is the kernel's result array. -/
theorem result_eq [Cert.Pre_finite_inputs.Facts] (c : Dev nD)
    (hpre : Cert.Pre_finite_inputs.fn (F := Ideal) (atoms m c) (bonds m c) (edges m c) (weights m c) (bias m c) = fun _ => 1#1) :
    Cert.ReferenceIdeal.Read.val_main_v16 (F := Ideal) (atoms m c) (bonds m c) (edges m c) (weights m c) (bias m c)
      = kerArr (V m c main_arg0) (V m c main_v0) (V m c main_v4) (V m c main_v5) (V m c main_v6) (V m c main_v7) := by
  obtain ⟨r0, r1, r3, r4⟩ := Cert.Finite.all_real _ _ _ _ _ hpre
  funext i
  obtain ⟨s, k, rfl⟩ : ∃ (s : Fin 4096) (k : Fin 128), i = ix2 s k := ⟨i 0, i 1, eq_ix2 i⟩
  rw [Cert.ReferenceIdeal.Entry.out_apply]
  show refEntry _ _ _ _ = kerAt _ _ _ _ _ _ s k
  unfold kerAt
  have hμ : (fun a : Fin 128 => Cert.ReferenceIdeal.Read.val_main_v7 (F := Ideal) (edges m c) (ix3 s a (0 : Fin 1)))
      = fun a : Fin 128 => (V m c main_v4 : (⟨S4096x128, .f32⟩ : BufTy).Contents (Elt Ideal)) (ix2 s a) :=
    funext fun a => (Cert.ReferenceIdeal.Entry.mask_apply (edges m c) s a).trans (mask_apply m c s a).symm
  have hβ : bias m c (ix1 k) = (V m c main_v7 : (⟨S1x128, .f32⟩ : BufTy).Contents (Elt Ideal)) (ix2 (0 : Fin 1) k) :=
    (biasRow_apply m c k).symm
  rw [hμ, hβ]
  refine Eq.symm (entry_eq
    (fun a f => (atoms m c (ix3 s a f)).toReal) (fun a d g => (bonds m c (ix4 s a d g)).toReal)
    (fun a => maskReal (edges m c) s a) (fun f => (weights m c (ix2 f k)).toReal) ((bias m c (ix1 k)).toReal)
    (fun a f => (V m c main_arg0 : (⟨S4096x128x62, .f32⟩ : BufTy).Contents (Elt Ideal)) (ix3 s a f))
    (fun a f => (congrFun (atoms_eq m c) (ix3 s a f)).trans (r0 (ix3 s a f)))
    (fun a j => (V m c main_v0 : (⟨S4096x128x30, .f32⟩ : BufTy).Contents (Elt Ideal)) (ix3 s a j))
    (fun a d g => (bondsFlat_apply m c s a d g).trans (r1 (ix4 s a d g)))
    (fun a => (V m c main_v4 : (⟨S4096x128, .f32⟩ : BufTy).Contents (Elt Ideal)) (ix2 s a))
    (fun a => mask_apply m c s a)
    (fun f => (V m c main_v5 : (⟨S62x128, .f32⟩ : BufTy).Contents (Elt Ideal)) (ix2 f k))
    (fun f => (wa_apply m c f k).trans (r3 (ix2 (rowA f) k)))
    (fun g => (V m c main_v6 : (⟨S6x128, .f32⟩ : BufTy).Contents (Elt Ideal)) (ix2 g k))
    (fun g => (wb_apply m c g k).trans (r3 (ix2 (rowB g) k)))
    ((V m c main_v7 : (⟨S1x128, .f32⟩ : BufTy).Contents (Elt Ideal)) (ix2 (0 : Fin 1) k))
    ((biasRow_apply m c k).trans (r4 (ix1 k)))
    (fun a f => Cert.ReferenceIdeal.Read.val_main_v9 (F := Ideal) (atoms m c) (bonds m c) (ix3 s a f))
    (fun a f => (Cert.ReferenceIdeal.Entry.concat_atoms (atoms m c) (bonds m c) s a f).trans
      (congrFun (atoms_eq m c) (ix3 s a f)).symm)
    (fun a g => (Cert.ReferenceIdeal.Entry.concat_bonds (atoms m c) (bonds m c) s a g).trans
      (congrArg (0 + ·) (Finset.sum_congr rfl fun d _ => r1 (ix4 s a d g))))
    (fun f => weights m c (ix2 f k))
    (fun f => r3 (ix2 f k)))

end Cert.Bridge

end
-- ==== Proof.lean ====
/-
  The certificate of the masked neighbour pooling followed by a dense layer: over the extended reals, with every
  float argument finite, the kernel (which pools the masked atom and bond features over the atoms first and then
  projects, adding the bias times the number of unmasked atoms) and the reference (which projects every atom, adds
  the bias, masks and sums over the atoms) end with the same result.

  The three frames are the generated ones (the reference's is its generated run with the result dropped); the
  idealization rewrote nothing, so `preserves` is trivial; the algebraic claim sets the kernel's run — its result
  array as one function of the staged arrays (Proof/Blocks.lean) — beside the reference's generated run, and joins
  them by Proof/Bridge.lean.
-/
import proofs.«139823_j13434657702340_2_alg».proof.Defs
import proofs.«139823_j13434657702340_2_alg».proof.Proof.Gen.Kernel
import proofs.«139823_j13434657702340_2_alg».proof.Proof.Gen.Kernel.Skeleton
import proofs.«139823_j13434657702340_2_alg».proof.Proof.Gen.Kernel.Launch
import proofs.«139823_j13434657702340_2_alg».proof.Proof.Gen.Kernel.Points
import proofs.«139823_j13434657702340_2_alg».proof.Proof.Gen.Kernel.Frame
import proofs.«139823_j13434657702340_2_alg».proof.Proof.Gen.KernelIdeal
import proofs.«139823_j13434657702340_2_alg».proof.Proof.Gen.KernelIdeal.Skeleton
import proofs.«139823_j13434657702340_2_alg».proof.Proof.Gen.KernelIdeal.Launch
import proofs.«139823_j13434657702340_2_alg».proof.Proof.Gen.KernelIdeal.Points
import proofs.«139823_j13434657702340_2_alg».proof.Proof.Gen.KernelIdeal.Frame
import proofs.«139823_j13434657702340_2_alg».proof.Proof.Gen.ReferenceIdeal
import proofs.«139823_j13434657702340_2_alg».proof.Proof.Gen.KernelIdeal.Value
import proofs.«139823_j13434657702340_2_alg».proof.Proof.Gen.ReferenceIdeal.Run
import proofs.«139823_j13434657702340_2_alg».proof.Proof.Gen.ReferenceIdeal.Read
import proofs.«139823_j13434657702340_2_alg».proof.Proof.Gen.Pre_finite_inputs
import proofs.«139823_j13434657702340_2_alg».proof.Proof.Bridge
import Idealize.ShloMosaic.Adequacy
import Idealize.ShloMosaic.Init

noncomputable section

namespace Cert.Proof

open Idealize.ShloMosaic Idealize.ShloMosaic.TcCoe Idealize.SL.Sem

/-- The reference has no kernel: its frame is its run with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the kernel's result array `kerArr` of the staged
    arrays: the kernel by its run read block by block, the reference because its result term is that array. -/
theorem algebraic : Cert.algebraic_KernelIdeal_ReferenceIdeal := by
  intro m ρ m' ρ' hpre hagree
  refine ⟨fun c => Cert.KernelIdeal.Blocks.kerArr (Cert.KernelIdeal.Gen.V m c Cert.KernelIdeal.main_arg0)
      (Cert.KernelIdeal.Gen.V m c Cert.KernelIdeal.main_v0) (Cert.KernelIdeal.Gen.V m c Cert.KernelIdeal.main_v4)
      (Cert.KernelIdeal.Gen.V m c Cert.KernelIdeal.main_v5) (Cert.KernelIdeal.Gen.V m c Cert.KernelIdeal.main_v6)
      (Cert.KernelIdeal.Gen.V m c Cert.KernelIdeal.main_v7),
    Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4⟩ := hagree c
  rw [a0, a1, a2, a3, a4]
  exact Cert.Bridge.result_eq m c (hpre c)

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  frame_reference,
  trivial,
  algebraic⟩

end Cert.Proof

end
